-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x32x128 : Shape := ⟨4, ![2, 8192, 32, 128]⟩
abbrev S_ : Shape := ⟨0, ![]⟩

class Facts : Prop where
  bcast_S_S2x8192x32x128 : S_.BroadcastsInDim S2x8192x32x128 (![] : Fin 0 → Fin S2x8192x32x128.rank)
  reducesTo_S2x8192x32x128_S_d0_1_2_3 : S2x8192x32x128.ReducesTo [0, 1, 2, 3] S_
  h_S_ : 0 < S_.numel

variable [Facts]

def fn {F : FTy → Type} [FloatOps F] (main_arg0 : FVec F S2x8192x32x128 .f32) (main_arg1 : FVec F S2x8192x32x128 .f32) (main_arg2 : FVec F S2x8192x32x128 .f32) : IVec S_ 1 :=
  let main_v0 : FVec F S2x8192x32x128 .f32 := Host.absf main_arg0
  let main_cst : FVec F S_ .f32 := constant S_ .f32 0x7F800000#32
  let main_v1 : FVec F S2x8192x32x128 .f32 := broadcastInDim S2x8192x32x128 ![] bcast_S_S2x8192x32x128 main_cst
  let main_v2 : IVec S2x8192x32x128 1 := cmpf .olt main_v0 main_v1
  let main_c : IVec S_ 1 := constantI S_ 1 1#1
  let main_v3 : IVec S_ 1 := (fun x v => Host.reduce IntOp.andi x v reducesTo_S2x8192x32x128_S_d0_1_2_3 h_S_) main_v2 main_c
  let main_v4 : FVec F S2x8192x32x128 .f32 := Host.absf main_arg1
  let main_cst_0 : FVec F S_ .f32 := constant S_ .f32 0x7F800000#32
  let main_v5 : FVec F S2x8192x32x128 .f32 := broadcastInDim S2x8192x32x128 ![] bcast_S_S2x8192x32x128 main_cst_0
  let main_v6 : IVec S2x8192x32x128 1 := cmpf .olt main_v4 main_v5
  let main_c_1 : IVec S_ 1 := constantI S_ 1 1#1
  let main_v7 : IVec S_ 1 := (fun x v => Host.reduce IntOp.andi x v reducesTo_S2x8192x32x128_S_d0_1_2_3 h_S_) main_v6 main_c_1
  let main_v8 : IVec S_ 1 := andi main_v3 main_v7
  let main_v9 : FVec F S2x8192x32x128 .f32 := Host.absf main_arg2
  let main_cst_2 : FVec F S_ .f32 := constant S_ .f32 0x7F800000#32
  let main_v10 : FVec F S2x8192x32x128 .f32 := broadcastInDim S2x8192x32x128 ![] bcast_S_S2x8192x32x128 main_cst_2
  let main_v11 : IVec S2x8192x32x128 1 := cmpf .olt main_v9 main_v10
  let main_c_3 : IVec S_ 1 := constantI S_ 1 1#1
  let main_v12 : IVec S_ 1 := (fun x v => Host.reduce IntOp.andi x v reducesTo_S2x8192x32x128_S_d0_1_2_3 h_S_) main_v11 main_c_3
  let main_v13 : IVec S_ 1 := andi main_v8 main_v12
  main_v13
-- ==== Kernel.lean ====
abbrev S2x8192x32x128 : Shape := ⟨4, ![2, 8192, 32, 128]⟩
abbrev S2x2048x4x32x128 : Shape := ⟨5, ![2, 2048, 4, 32, 128]⟩
abbrev S2x1x32x128 : Shape := ⟨4, ![2, 1, 32, 128]⟩
abbrev S2x32x128 : Shape := ⟨3, ![2, 32, 128]⟩
abbrev S1x128x32x128 : Shape := ⟨4, ![1, 128, 32, 128]⟩
abbrev S1x128x1x32x128 : Shape := ⟨5, ![1, 128, 1, 32, 128]⟩
abbrev S1x32x128 : Shape := ⟨3, ![1, 32, 128]⟩
abbrev S128x32x128 : Shape := ⟨3, ![128, 32, 128]⟩
abbrev S128x1x32x128 : Shape := ⟨4, ![128, 1, 32, 128]⟩
abbrev S32x128 : Shape := ⟨2, ![32, 128]⟩
abbrev S128x32x32 : Shape := ⟨3, ![128, 32, 32]⟩
abbrev S128x32 : Shape := ⟨2, ![128, 32]⟩
abbrev S128x32x1 : Shape := ⟨3, ![128, 32, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x32x128, .f32⟩
  | .hbm, ⟨2, _⟩ => ⟨S2x8192x32x128, .f32⟩
  | .hbm, ⟨3, _⟩ => ⟨S2x2048x4x32x128, .f32⟩
  | .hbm, ⟨4, _⟩ => ⟨S2x2048x4x32x128, .f32⟩
  | .hbm, ⟨5, _⟩ => ⟨S2x1x32x128, .f32⟩
  | .hbm, ⟨6, _⟩ => ⟨S2x32x128, .f32⟩
  | .hbm, ⟨7, _⟩ => ⟨S2x1x32x128, .f32⟩
  | .hbm, ⟨8, _⟩ => ⟨S2x32x128, .f32⟩
  | .hbm, ⟨9, _⟩ => ⟨S2x8192x32x128, .f32⟩
  | .local _ .vmem, ⟨0, _⟩ => ⟨S1x128x32x128, .f32⟩
  | .local _ .vmem, ⟨1, _⟩ => ⟨S1x128x32x128, .f32⟩
  | .local _ .vmem, ⟨2, _⟩ => ⟨S1x128x1x32x128, .f32⟩
  | .local _ .vmem, ⟨3, _⟩ => ⟨S1x128x1x32x128, .f32⟩
  | .local _ .vmem, ⟨4, _⟩ => ⟨S1x128x1x32x128, .f32⟩
  | .local _ .vmem, ⟨5, _⟩ => ⟨S1x128x1x32x128, .f32⟩
  | .local _ .vmem, ⟨6, _⟩ => ⟨S1x32x128, .f32⟩
  | .local _ .vmem, ⟨7, _⟩ => ⟨S1x32x128, .f32⟩
  | .local _ .vmem, ⟨8, _⟩ => ⟨S1x32x128, .f32⟩
  | .local _ .vmem, ⟨9, _⟩ => ⟨S1x32x128, .f32⟩
  | .local _ .vmem, ⟨10, _⟩ => ⟨S1x128x32x128, .f32⟩
  | .local _ .vmem, ⟨11, _⟩ => ⟨S1x128x32x128, .f32⟩
  | _, _ => ⟨S2x8192x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x8192x32x128_S2x2048x4x32x128 : S2x8192x32x128.ShapeCasts S2x2048x4x32x128
  slices_S2x8192x32x128_S2x1x32x128_0_8191_0_0 : S2x8192x32x128.Slices ![0, 8191, 0, 0] S2x1x32x128
  shapeCasts_S2x1x32x128_S2x32x128 : S2x1x32x128.ShapeCasts S2x32x128
  inb_S1x128x32x128_S1x128x32x128_0_0_0_0 : ∀ a, (![0, 0, 0, 0] : Fin 4 → Nat) a + S1x128x32x128.size a ≤ S1x128x32x128.size a
  h_S1x128x32x128 : 0 < S1x128x32x128.numel
  shapeCasts_S1x128x32x128_S128x32x128 : S1x128x32x128.ShapeCasts S128x32x128
  bitsLt_bf16_f32 : FTy.bits .bf16 < FTy.bits .f32
  inb_S1x128x1x32x128_S1x128x1x32x128_0_0_0_0_0 : ∀ a, (![0, 0, 0, 0, 0] : Fin 5 → Nat) a + S1x128x1x32x128.size a ≤ S1x128x1x32x128.size a
  h_S1x128x1x32x128 : 0 < S1x128x1x32x128.numel
  shapeCasts_S1x128x1x32x128_S128x1x32x128 : S1x128x1x32x128.ShapeCasts S128x1x32x128
  shapeCasts_S128x1x32x128_S128x32x128 : S128x1x32x128.ShapeCasts S128x32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  shapeCasts_S1x32x128_S1x32x128 : S1x32x128.ShapeCasts S1x32x128
  broadcasts_S1x32x128_S128x32x128 : S1x32x128.Broadcasts S128x32x128
  reduces_S128x32x32_S128x32 : S128x32x32.Reduces [2] S128x32
  shapeCasts_S128x32_S128x32x1 : S128x32.ShapeCasts S128x32x1
  broadcasts_S128x32x1_S128x32x32 : S128x32x1.Broadcasts S128x32x32
  shapeCasts_S128x32x128_S1x128x32x128 : S128x32x128.ShapeCasts S1x128x32x128
  dot_S128x32x128_S128x32x128_S128x32x32_2_2_1_1_0_0_wf : DotDims.WF S128x32x128 S128x32x128 S128x32x32 [2] [2] [1] [1] [0] [0]
  dot_S128x32x32_S128x32x128_S128x32x128_2_1_1_2_0_0_wf : DotDims.WF S128x32x32 S128x32x128 S128x32x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x128.size a ≤ S2x8192x32x128.size a
  hwx0_0 : ∀ i : grid0.Coords, EltTy.bits .f32 = 32 ∨ (Rect.block (s := S2x8192x32x128) S1x128x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1x32x128.size a ≤ S2x2048x4x32x128.size a
  hwx0_1 : ∀ i : grid0.Coords, EltTy.bits .f32 = 32 ∨ (Rect.block (s := S2x2048x4x32x128) S1x128x1x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1x32x128.size a ≤ S2x2048x4x32x128.size a
  hwx0_2 : ∀ i : grid0.Coords, EltTy.bits .f32 = 32 ∨ (Rect.block (s := S2x2048x4x32x128) S1x128x1x32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128.size a ≤ S2x32x128.size a
  hwx0_3 : ∀ i : grid0.Coords, EltTy.bits .f32 = 32 ∨ (Rect.block (s := S2x32x128) S1x32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128.size a ≤ S2x32x128.size a
  hwx0_4 : ∀ i : grid0.Coords, EltTy.bits .f32 = 32 ∨ (Rect.block (s := S2x32x128) S1x32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x32x128.size a ≤ S2x8192x32x128.size a
  hwx0_5 : ∀ i : grid0.Coords, EltTy.bits .f32 = 32 ∨ (Rect.block (s := S2x8192x32x128) S1x128x32x128.size (cc0_transform_5 i) (hinb0_5 i)).WholeWords (EltTy.packing .f32)

variable [Facts₀]

def dot_S128x32x128_S128x32x128_S128x32x32_2_2_1_1_0_0 : DotDims S128x32x128 S128x32x128 S128x32x32 where
  lhsContracting := [2]
  rhsContracting := [2]
  lhsNonContracting := [1]
  rhsNonContracting := [1]
  lhsBatch := [0]
  rhsBatch := [0]
  wf := dot_S128x32x128_S128x32x128_S128x32x32_2_2_1_1_0_0_wf
def dot_S128x32x32_S128x32x128_S128x32x128_2_1_1_2_0_0 : DotDims S128x32x32 S128x32x128 S128x32x128 where
  lhsContracting := [2]
  rhsContracting := [1]
  lhsNonContracting := [1]
  rhsNonContracting := [2]
  lhsBatch := [0]
  rhsBatch := [0]
  wf := dot_S128x32x32_S128x32x128_S128x32x128_2_1_1_2_0_0_wf

abbrev win0_0 : Pipeline.Window sig grid0 :=
  Pipeline.Window.ofSpec (Memref.whole main_arg0) S1x128x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x1x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128x32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x8192x32x128 : Shape := ⟨4, ![2, 8192, 32, 128]⟩
abbrev S0 : Shape := ⟨1, ![0]⟩
abbrev S_ : Shape := ⟨0, ![]⟩
abbrev S2x4x2048x32x128 : Shape := ⟨5, ![2, 4, 2048, 32, 128]⟩
abbrev S2x4x2048x32x32 : Shape := ⟨5, ![2, 4, 2048, 32, 32]⟩
abbrev S2x4x2048x32 : Shape := ⟨4, ![2, 4, 2048, 32]⟩
abbrev S2x4x2048x32x1 : Shape := ⟨5, ![2, 4, 2048, 32, 1]⟩
abbrev S2x2x4096x32x128 : Shape := ⟨5, ![2, 2, 4096, 32, 128]⟩
abbrev S2 : Shape := ⟨1, ![2]⟩
abbrev S2x1 : Shape := ⟨2, ![2, 1]⟩
abbrev S4096 : Shape := ⟨1, ![4096]⟩
abbrev S1x4096 : Shape := ⟨2, ![1, 4096]⟩
abbrev S2x4096 : Shape := ⟨2, ![2, 4096]⟩
abbrev S2x4096x1 : Shape := ⟨3, ![2, 4096, 1]⟩
abbrev S2x2x4096x32x32 : Shape := ⟨5, ![2, 2, 4096, 32, 32]⟩
abbrev S2x2x4096x32 : Shape := ⟨4, ![2, 2, 4096, 32]⟩
abbrev S2x2x4096x32x1 : Shape := ⟨5, ![2, 2, 4096, 32, 1]⟩
abbrev S2x1x8192x32x128 : Shape := ⟨5, ![2, 1, 8192, 32, 128]⟩
abbrev S1 : Shape := ⟨1, ![1]⟩
abbrev S1x1 : Shape := ⟨2, ![1, 1]⟩
abbrev S8192 : Shape := ⟨1, ![8192]⟩
abbrev S1x8192 : Shape := ⟨2, ![1, 8192]⟩
abbrev S1x8192x1 : Shape := ⟨3, ![1, 8192, 1]⟩
abbrev S2x1x8192x32x32 : Shape := ⟨5, ![2, 1, 8192, 32, 32]⟩
abbrev S2x1x8192x32 : Shape := ⟨4, ![2, 1, 8192, 32]⟩
abbrev S2x1x8192x32x1 : Shape := ⟨5, ![2, 1, 8192, 32, 1]⟩

abbrev nBuf : Space → Nat
  | .hbm => 143
  | .vmem => 0
  | .smem => 0
  | _ => 0

abbrev hbmTy0_0 (i : Nat) : BufTy := match i % 128 with
  | 0 => ⟨S2x8192x32x128, .f32⟩
  | 1 => ⟨S2x8192x32x128, .f32⟩
  | 2 => ⟨S2x8192x32x128, .f32⟩
  | 3 => ⟨S0, .i32⟩
  | 4 => ⟨S0, .i32⟩
  | 5 => ⟨S0, .i32⟩
  | 6 => ⟨S_, .f32⟩
  | 7 => ⟨S2x8192x32x128, .f32⟩
  | 8 => ⟨S2x4x2048x32x128, .f32⟩
  | 9 => ⟨S2x4x2048x32x128, .f32⟩
  | 10 => ⟨S2x4x2048x32x128, .f32⟩
  | 11 => ⟨S2x4x2048x32x32, .f32⟩
  | 12 => ⟨S_, .f32⟩
  | 13 => ⟨S2x4x2048x32x32, .f32⟩
  | 14 => ⟨S2x4x2048x32x32, .f32⟩
  | 15 => ⟨S_, .f32⟩
  | 16 => ⟨S2x4x2048x32, .f32⟩
  | 17 => ⟨S_, .f32⟩
  | 18 => ⟨S2x4x2048x32, .f32⟩
  | 19 => ⟨S2x4x2048x32, .f32⟩
  | 20 => ⟨S2x4x2048x32x1, .f32⟩
  | 21 => ⟨S2x4x2048x32x32, .f32⟩
  | 22 => ⟨S2x4x2048x32x32, .f32⟩
  | 23 => ⟨S2x4x2048x32x32, .f32⟩
  | 24 => ⟨S_, .f32⟩
  | 25 => ⟨S2x4x2048x32, .f32⟩
  | 26 => ⟨S2x4x2048x32x1, .f32⟩
  | 27 => ⟨S2x4x2048x32x32, .f32⟩
  | 28 => ⟨S2x4x2048x32x32, .f32⟩
  | 29 => ⟨S2x4x2048x32x128, .f32⟩
  | 30 => ⟨S2x8192x32x128, .f32⟩
  | 31 => ⟨S2x8192x32x128, .f32⟩
  | 32 => ⟨S2x2x4096x32x128, .f32⟩
  | 33 => ⟨S2, .i32⟩
  | 34 => ⟨S2x1, .i32⟩
  | 35 => ⟨S_, .i32⟩
  | 36 => ⟨S2x1, .i32⟩
  | 37 => ⟨S2x1, .i32⟩
  | 38 => ⟨S4096, .i32⟩
  | 39 => ⟨S1x4096, .i32⟩
  | 40 => ⟨S_, .i32⟩
  | 41 => ⟨S1x4096, .i32⟩
  | 42 => ⟨S1x4096, .i32⟩
  | 43 => ⟨S2x4096, .i32⟩
  | 44 => ⟨S2x4096, .i32⟩
  | 45 => ⟨S2x4096, .i32⟩
  | 46 => ⟨S_, .i32⟩
  | 47 => ⟨S2x4096, .i32⟩
  | 48 => ⟨S2x4096, .i32⟩
  | 49 => ⟨S_, .i32⟩
  | 50 => ⟨S2x4096, .i32⟩
  | 51 => ⟨S2x4096, .i1⟩
  | 52 => ⟨S_, .i32⟩
  | 53 => ⟨S2x4096, .i32⟩
  | 54 => ⟨S2x4096, .i32⟩
  | 55 => ⟨S2x4096, .i32⟩
  | 56 => ⟨S2x4096x1, .i32⟩
  | 57 => ⟨S2x2x4096x32x128, .f32⟩
  | 58 => ⟨S_, .i32⟩
  | 59 => ⟨S2x4096, .i32⟩
  | 60 => ⟨S2x4096, .i1⟩
  | 61 => ⟨S_, .i32⟩
  | 62 => ⟨S2x4096, .i32⟩
  | 63 => ⟨S2x4096, .i32⟩
  | 64 => ⟨S2x4096, .i32⟩
  | 65 => ⟨S2x4096x1, .i32⟩
  | 66 => ⟨S2x2x4096x32x128, .f32⟩
  | 67 => ⟨S2x2x4096x32x32, .f32⟩
  | 68 => ⟨S_, .f32⟩
  | 69 => ⟨S2x2x4096x32x32, .f32⟩
  | 70 => ⟨S2x2x4096x32x32, .f32⟩
  | 71 => ⟨S_, .f32⟩
  | 72 => ⟨S2x2x4096x32, .f32⟩
  | 73 => ⟨S_, .f32⟩
  | 74 => ⟨S2x2x4096x32, .f32⟩
  | 75 => ⟨S2x2x4096x32, .f32⟩
  | 76 => ⟨S2x2x4096x32x1, .f32⟩
  | 77 => ⟨S2x2x4096x32x32, .f32⟩
  | 78 => ⟨S2x2x4096x32x32, .f32⟩
  | 79 => ⟨S2x2x4096x32x32, .f32⟩
  | 80 => ⟨S_, .f32⟩
  | 81 => ⟨S2x2x4096x32, .f32⟩
  | 82 => ⟨S2x2x4096x32x1, .f32⟩
  | 83 => ⟨S2x2x4096x32x32, .f32⟩
  | 84 => ⟨S2x2x4096x32x32, .f32⟩
  | 85 => ⟨S2x2x4096x32x128, .f32⟩
  | 86 => ⟨S2x8192x32x128, .f32⟩
  | 87 => ⟨S2x8192x32x128, .f32⟩
  | 88 => ⟨S2x1x8192x32x128, .f32⟩
  | 89 => ⟨S1, .i32⟩
  | 90 => ⟨S1x1, .i32⟩
  | 91 => ⟨S_, .i32⟩
  | 92 => ⟨S1x1, .i32⟩
  | 93 => ⟨S1x1, .i32⟩
  | 94 => ⟨S8192, .i32⟩
  | 95 => ⟨S1x8192, .i32⟩
  | 96 => ⟨S_, .i32⟩
  | 97 => ⟨S1x8192, .i32⟩
  | 98 => ⟨S1x8192, .i32⟩
  | 99 => ⟨S1x8192, .i32⟩
  | 100 => ⟨S1x8192, .i32⟩
  | 101 => ⟨S_, .i32⟩
  | 102 => ⟨S1x8192, .i32⟩
  | 103 => ⟨S1x8192, .i32⟩
  | 104 => ⟨S_, .i32⟩
  | 105 => ⟨S1x8192, .i32⟩
  | 106 => ⟨S1x8192, .i1⟩
  | 107 => ⟨S_, .i32⟩
  | 108 => ⟨S1x8192, .i32⟩
  | 109 => ⟨S1x8192, .i32⟩
  | 110 => ⟨S1x8192, .i32⟩
  | 111 => ⟨S1x8192x1, .i32⟩
  | 112 => ⟨S2x1x8192x32x128, .f32⟩
  | 113 => ⟨S_, .i32⟩
  | 114 => ⟨S1x8192, .i32⟩
  | 115 => ⟨S1x8192, .i1⟩
  | 116 => ⟨S_, .i32⟩
  | 117 => ⟨S1x8192, .i32⟩
  | 118 => ⟨S1x8192, .i32⟩
  | 119 => ⟨S1x8192, .i32⟩
  | 120 => ⟨S1x8192x1, .i32⟩
  | 121 => ⟨S2x1x8192x32x128, .f32⟩
  | 122 => ⟨S2x1x8192x32x32, .f32⟩
  | 123 => ⟨S_, .f32⟩
  | 124 => ⟨S2x1x8192x32x32, .f32⟩
  | 125 => ⟨S2x1x8192x32x32, .f32⟩
  | 126 => ⟨S_, .f32⟩
  | 127 => ⟨S2x1x8192x32, .f32⟩
  | _ => ⟨S2x8192x32x128, .f32⟩

abbrev hbmTy0_1 (i : Nat) : BufTy := match i % 128 with
  | 0 => ⟨S_, .f32⟩
  | 1 => ⟨S2x1x8192x32, .f32⟩
  | 2 => ⟨S2x1x8192x32, .f32⟩
  | 3 => ⟨S2x1x8192x32x1, .f32⟩
  | 4 => ⟨S2x1x8192x32x32, .f32⟩
  | 5 => ⟨S2x1x8192x32x32, .f32⟩
  | 6 => ⟨S2x1x8192x32x32, .f32⟩
  | 7 => ⟨S_, .f32⟩
  | 8 => ⟨S2x1x8192x32, .f32⟩
  | 9 => ⟨S2x1x8192x32x1, .f32⟩
  | 10 => ⟨S2x1x8192x32x32, .f32⟩
  | 11 => ⟨S2x1x8192x32x32, .f32⟩
  | 12 => ⟨S2x1x8192x32x128, .f32⟩
  | 13 => ⟨S2x8192x32x128, .f32⟩
  | 14 => ⟨S2x8192x32x128, .f32⟩
  | _ => ⟨S2x8192x32x128, .f32⟩

abbrev hbmTy (i : Nat) : BufTy := match i / 128 with
  | 0 => hbmTy0_0 i
  | 1 => hbmTy0_1 i
  | _ => ⟨S2x8192x32x128, .f32⟩

abbrev bufTy : (tb : Table) → Fin (tcTables nBuf tb) → BufTy
  | .hbm, ⟨i, _⟩ => hbmTy i
  | _, _ => ⟨S2x8192x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_cst_4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_8 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_v35 : Ref sig .tc := ⟨.hbm, 50, rfl⟩
abbrev main_v36 : Ref sig .tc := ⟨.hbm, 51, rfl⟩
abbrev main_c_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_11 : Ref sig .tc := ⟨.hbm, 58, rfl⟩
abbrev main_v42 : Ref sig .tc := ⟨.hbm, 59, rfl⟩
abbrev main_v43 : Ref sig .tc := ⟨.hbm, 60, rfl⟩
abbrev main_c_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_17 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_18 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_c_19 : Ref sig .tc := ⟨.hbm, 101, rfl⟩
abbrev main_v77 : Ref sig .tc := ⟨.hbm, 102, rfl⟩
abbrev main_v78 : Ref sig .tc := ⟨.hbm, 103, rfl⟩
abbrev main_c_20 : Ref sig .tc := ⟨.hbm, 104, rfl⟩
abbrev main_v79 : Ref sig .tc := ⟨.hbm, 105, rfl⟩
abbrev main_v80 : Ref sig .tc := ⟨.hbm, 106, rfl⟩
abbrev main_c_21 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_22 : Ref sig .tc := ⟨.hbm, 113, rfl⟩
abbrev main_v86 : Ref sig .tc := ⟨.hbm, 114, rfl⟩
abbrev main_v87 : Ref sig .tc := ⟨.hbm, 115, rfl⟩
abbrev main_c_23 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_24 : Ref sig .tc := ⟨.hbm, 123, rfl⟩
abbrev main_v94 : Ref sig .tc := ⟨.hbm, 124, rfl⟩
abbrev main_v95 : Ref sig .tc := ⟨.hbm, 125, rfl⟩
abbrev main_cst_25 : Ref sig .tc := ⟨.hbm, 126, rfl⟩
abbrev main_v96 : Ref sig .tc := ⟨.hbm, 127, rfl⟩
abbrev main_cst_26 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_27 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩

abbrev nD : Nat := 1
abbrev τ : Topo := Topo.v7x

variable {F : FTy → Type} [FloatOps F]

class Facts₀ : Prop where
  hz_S0 : S0.numel = 0
  bcast_S_S2x8192x32x128 : S_.BroadcastsInDim S2x8192x32x128 (![] : Fin 0 → Fin S2x8192x32x128.rank)
  shapeCasts_S2x8192x32x128_S2x4x2048x32x128 : S2x8192x32x128.ShapeCasts S2x4x2048x32x128
  bcast_S_S2x4x2048x32x32 : S_.BroadcastsInDim S2x4x2048x32x32 (![] : Fin 0 → Fin S2x4x2048x32x32.rank)
  reducesTo_S2x4x2048x32x32_S2x4x2048x32_d4 : S2x4x2048x32x32.ReducesTo [4] S2x4x2048x32
  h_S_ : 0 < S_.numel
  bcast_S_S2x4x2048x32 : S_.BroadcastsInDim S2x4x2048x32 (![] : Fin 0 → Fin S2x4x2048x32.rank)
  bcast_S2x4x2048x32_S2x4x2048x32x1_0_1_2_3 : S2x4x2048x32.BroadcastsInDim S2x4x2048x32x1 (![0, 1, 2, 3] : Fin 4 → Fin S2x4x2048x32x1.rank)
  bcast_S2x4x2048x32x1_S2x4x2048x32x32_0_1_2_3_4 : S2x4x2048x32x1.BroadcastsInDim S2x4x2048x32x32 (![0, 1, 2, 3, 4] : Fin 5 → Fin S2x4x2048x32x32.rank)
  shapeCasts_S2x4x2048x32x128_S2x8192x32x128 : S2x4x2048x32x128.ShapeCasts S2x8192x32x128
  shapeCasts_S2x8192x32x128_S2x2x4096x32x128 : S2x8192x32x128.ShapeCasts S2x2x4096x32x128
  bcast_S2_S2x1_0 : S2.BroadcastsInDim S2x1 (![0] : Fin 1 → Fin S2x1.rank)
  bcast_S_S2x1 : S_.BroadcastsInDim S2x1 (![] : Fin 0 → Fin S2x1.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S2x1_S2x4096_0_1 : S2x1.BroadcastsInDim S2x4096 (![0, 1] : Fin 2 → Fin S2x4096.rank)
  bcast_S1x4096_S2x4096_0_1 : S1x4096.BroadcastsInDim S2x4096 (![0, 1] : Fin 2 → Fin S2x4096.rank)
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S_S2x2x4096x32x32 : S_.BroadcastsInDim S2x2x4096x32x32 (![] : Fin 0 → Fin S2x2x4096x32x32.rank)
  reducesTo_S2x2x4096x32x32_S2x2x4096x32_d4 : S2x2x4096x32x32.ReducesTo [4] S2x2x4096x32
  bcast_S_S2x2x4096x32 : S_.BroadcastsInDim S2x2x4096x32 (![] : Fin 0 → Fin S2x2x4096x32.rank)
  bcast_S2x2x4096x32_S2x2x4096x32x1_0_1_2_3 : S2x2x4096x32.BroadcastsInDim S2x2x4096x32x1 (![0, 1, 2, 3] : Fin 4 → Fin S2x2x4096x32x1.rank)
  bcast_S2x2x4096x32x1_S2x2x4096x32x32_0_1_2_3_4 : S2x2x4096x32x1.BroadcastsInDim S2x2x4096x32x32 (![0, 1, 2, 3, 4] : Fin 5 → Fin S2x2x4096x32x32.rank)
  shapeCasts_S2x2x4096x32x128_S2x8192x32x128 : S2x2x4096x32x128.ShapeCasts S2x8192x32x128
  shapeCasts_S2x8192x32x128_S2x1x8192x32x128 : S2x8192x32x128.ShapeCasts S2x1x8192x32x128
  bcast_S1_S1x1_0 : S1.BroadcastsInDim S1x1 (![0] : Fin 1 → Fin S1x1.rank)
  bcast_S_S1x1 : S_.BroadcastsInDim S1x1 (![] : Fin 0 → Fin S1x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x1_S1x8192_0_1 : S1x1.BroadcastsInDim S1x8192 (![0, 1] : Fin 2 → Fin S1x8192.rank)
  bcast_S1x8192_S1x8192x1_0_1 : S1x8192.BroadcastsInDim S1x8192x1 (![0, 1] : Fin 2 → Fin S1x8192x1.rank)
  bcast_S_S2x1x8192x32x32 : S_.BroadcastsInDim S2x1x8192x32x32 (![] : Fin 0 → Fin S2x1x8192x32x32.rank)
  reducesTo_S2x1x8192x32x32_S2x1x8192x32_d4 : S2x1x8192x32x32.ReducesTo [4] S2x1x8192x32
  bcast_S_S2x1x8192x32 : S_.BroadcastsInDim S2x1x8192x32 (![] : Fin 0 → Fin S2x1x8192x32.rank)
  bcast_S2x1x8192x32_S2x1x8192x32x1_0_1_2_3 : S2x1x8192x32.BroadcastsInDim S2x1x8192x32x1 (![0, 1, 2, 3] : Fin 4 → Fin S2x1x8192x32x1.rank)
  bcast_S2x1x8192x32x1_S2x1x8192x32x32_0_1_2_3_4 : S2x1x8192x32x1.BroadcastsInDim S2x1x8192x32x32 (![0, 1, 2, 3, 4] : Fin 5 → Fin S2x1x8192x32x32.rank)
  shapeCasts_S2x1x8192x32x128_S2x8192x32x128 : S2x1x8192x32x128.ShapeCasts S2x8192x32x128
  dot_S2x4x2048x32x128_S2x4x2048x32x128_S2x4x2048x32x32_4_4_3_3_012_012_wf : DotDims.WF S2x4x2048x32x128 S2x4x2048x32x128 S2x4x2048x32x32 [4] [4] [3] [3] [0, 1, 2] [0, 1, 2]
  dot_S2x4x2048x32x32_S2x4x2048x32x128_S2x4x2048x32x128_4_3_3_4_012_012_wf : DotDims.WF S2x4x2048x32x32 S2x4x2048x32x128 S2x4x2048x32x128 [4] [3] [3] [4] [0, 1, 2] [0, 1, 2]
  scatter_S2x8192x32x128_S0_S2x8192x32x128_0123_n_n_0_wf : ScatterDims.WF S2x8192x32x128 S0 S2x8192x32x128 [0, 1, 2, 3] [] [] 0
  gather_S2x8192x32x128_S2x4096x1_S2x2x4096x32x128_034_1_n_n_1_2_2132128_wf : GatherDims.WF S2x8192x32x128 S2x4096x1 S2x2x4096x32x128 [0, 3, 4] [1] [] [1] [] 2 ![2, 1, 32, 128]
  dot_S2x2x4096x32x128_S2x2x4096x32x128_S2x2x4096x32x32_4_4_3_3_012_012_wf : DotDims.WF S2x2x4096x32x128 S2x2x4096x32x128 S2x2x4096x32x32 [4] [4] [3] [3] [0, 1, 2] [0, 1, 2]
  dot_S2x2x4096x32x32_S2x2x4096x32x128_S2x2x4096x32x128_4_3_3_4_012_012_wf : DotDims.WF S2x2x4096x32x32 S2x2x4096x32x128 S2x2x4096x32x128 [4] [3] [3] [4] [0, 1, 2] [0, 1, 2]
  gather_S2x8192x32x128_S1x8192x1_S2x1x8192x32x128_034_1_n_n_1_2_2132128_wf : GatherDims.WF S2x8192x32x128 S1x8192x1 S2x1x8192x32x128 [0, 3, 4] [1] [] [1] [] 2 ![2, 1, 32, 128]
  dot_S2x1x8192x32x128_S2x1x8192x32x128_S2x1x8192x32x32_4_4_3_3_012_012_wf : DotDims.WF S2x1x8192x32x128 S2x1x8192x32x128 S2x1x8192x32x32 [4] [4] [3] [3] [0, 1, 2] [0, 1, 2]
  dot_S2x1x8192x32x32_S2x1x8192x32x128_S2x1x8192x32x128_4_3_3_4_012_012_wf : DotDims.WF S2x1x8192x32x32 S2x1x8192x32x128 S2x1x8192x32x128 [4] [3] [3] [4] [0, 1, 2] [0, 1, 2]

variable [Facts₀]

def dot_S2x4x2048x32x128_S2x4x2048x32x128_S2x4x2048x32x32_4_4_3_3_012_012 : DotDims S2x4x2048x32x128 S2x4x2048x32x128 S2x4x2048x32x32 where
  lhsContracting := [4]
  rhsContracting := [4]
  lhsNonContracting := [3]
  rhsNonContracting := [3]
  lhsBatch := [0, 1, 2]
  rhsBatch := [0, 1, 2]
  wf := dot_S2x4x2048x32x128_S2x4x2048x32x128_S2x4x2048x32x32_4_4_3_3_012_012_wf
def dot_S2x4x2048x32x32_S2x4x2048x32x128_S2x4x2048x32x128_4_3_3_4_012_012 : DotDims S2x4x2048x32x32 S2x4x2048x32x128 S2x4x2048x32x128 where
  lhsContracting := [4]
  rhsContracting := [3]
  lhsNonContracting := [3]
  rhsNonContracting := [4]
  lhsBatch := [0, 1, 2]
  rhsBatch := [0, 1, 2]
  wf := dot_S2x4x2048x32x32_S2x4x2048x32x128_S2x4x2048x32x128_4_3_3_4_012_012_wf
def scatter_S2x8192x32x128_S0_S2x8192x32x128_0123_n_n_0 : ScatterDims S2x8192x32x128 S0 S2x8192x32x128 where
  updateWindowDims := [0, 1, 2, 3]
  insertedWindowDims := []
  scatterDimsToOperandDims := []
  indexVectorDim := 0
  wf := scatter_S2x8192x32x128_S0_S2x8192x32x128_0123_n_n_0_wf
def gather_S2x8192x32x128_S2x4096x1_S2x2x4096x32x128_034_1_n_n_1_2_2132128 : GatherDims S2x8192x32x128 S2x4096x1 S2x2x4096x32x128 where
  offsetDims := [0, 3, 4]
  collapsedSliceDims := [1]
  operandBatchingDims := []
  startIndicesBatchingDims := []
  startIndexMap := [1]
  indexVectorDim := 2
  sliceSizes := ![2, 1, 32, 128]
  wf := gather_S2x8192x32x128_S2x4096x1_S2x2x4096x32x128_034_1_n_n_1_2_2132128_wf
def dot_S2x2x4096x32x128_S2x2x4096x32x128_S2x2x4096x32x32_4_4_3_3_012_012 : DotDims S2x2x4096x32x128 S2x2x4096x32x128 S2x2x4096x32x32 where
  lhsContracting := [4]
  rhsContracting := [4]
  lhsNonContracting := [3]
  rhsNonContracting := [3]
  lhsBatch := [0, 1, 2]
  rhsBatch := [0, 1, 2]
  wf := dot_S2x2x4096x32x128_S2x2x4096x32x128_S2x2x4096x32x32_4_4_3_3_012_012_wf
def dot_S2x2x4096x32x32_S2x2x4096x32x128_S2x2x4096x32x128_4_3_3_4_012_012 : DotDims S2x2x4096x32x32 S2x2x4096x32x128 S2x2x4096x32x128 where
  lhsContracting := [4]
  rhsContracting := [3]
  lhsNonContracting := [3]
  rhsNonContracting := [4]
  lhsBatch := [0, 1, 2]
  rhsBatch := [0, 1, 2]
  wf := dot_S2x2x4096x32x32_S2x2x4096x32x128_S2x2x4096x32x128_4_3_3_4_012_012_wf
def gather_S2x8192x32x128_S1x8192x1_S2x1x8192x32x128_034_1_n_n_1_2_2132128 : GatherDims S2x8192x32x128 S1x8192x1 S2x1x8192x32x128 where
  offsetDims := [0, 3, 4]
  collapsedSliceDims := [1]
  operandBatchingDims := []
  startIndicesBatchingDims := []
  startIndexMap := [1]
  indexVectorDim := 2
  sliceSizes := ![2, 1, 32, 128]
  wf := gather_S2x8192x32x128_S1x8192x1_S2x1x8192x32x128_034_1_n_n_1_2_2132128_wf
def dot_S2x1x8192x32x128_S2x1x8192x32x128_S2x1x8192x32x32_4_4_3_3_012_012 : DotDims S2x1x8192x32x128 S2x1x8192x32x128 S2x1x8192x32x32 where
  lhsContracting := [4]
  rhsContracting := [4]
  lhsNonContracting := [3]
  rhsNonContracting := [3]
  lhsBatch := [0, 1, 2]
  rhsBatch := [0, 1, 2]
  wf := dot_S2x1x8192x32x128_S2x1x8192x32x128_S2x1x8192x32x32_4_4_3_3_012_012_wf
def dot_S2x1x8192x32x32_S2x1x8192x32x128_S2x1x8192x32x128_4_3_3_4_012_012 : DotDims S2x1x8192x32x32 S2x1x8192x32x128 S2x1x8192x32x128 where
  lhsContracting := [4]
  rhsContracting := [3]
  lhsNonContracting := [3]
  rhsNonContracting := [4]
  lhsBatch := [0, 1, 2]
  rhsBatch := [0, 1, 2]
  wf := dot_S2x1x8192x32x32_S2x1x8192x32x128_S2x1x8192x32x128_4_3_3_4_012_012_wf

class Facts : Prop extends Facts₀ where

variable [Facts]
-- ==== Proof.Spec.lean ====
/-
  The function both programs compute, at the extended reals.

  The arrays are q, k, v : [2, 8192, 32, 128] (batch, position, head, feature). Of the three segment configurations
  the reference runs, each overwrites every position, so only the last survives: one segment of all 8192 positions
  with dilation 4. There the query at position p meets ONE key row, the row min(4p, 8191) of the same batch, and
  attends over that row's 32 HEADS: for query head i and key head g the score is the dot product over the 128
  features times the literal 2^(-7/2) rounded to f32, the weights are the softmax of the scores over g, and the
  result at (i, e) is the weighted sum over g of the value row's entry (g, e).

  `attnAt Q K V` is that attention over heads at one position, from the position's three [32, 128] rows. The
  kernel's block body, the reference's chain of host operations, and `G` are each `attnAt` of their own rows.
-/
import Idealize.ShloMosaic.PureOps.Ideal
import Idealize.ShloMosaic.Lib.ValueIdx
import Mathlib.Data.Finset.Fold

noncomputable section

namespace Cert.DilatedAttn

open Idealize.ShloMosaic Idealize.ShloMosaic.ValueIdx

/-- The arrays' shape: batch, position, head, feature. -/
abbrev SArr : Shape := ⟨4, ![2, 8192, 32, 128]⟩

/-- The score scale, the f32 word of 1/sqrt 128 that both programs multiply by. It is never evaluated. -/
def scale : EReal := Ideal.ofBits .f32 0x3DB504F3#32

/-- The value a row maximum is folded from: the f32 word of minus infinity. It is never evaluated. -/
def negInf : EReal := Ideal.ofBits .f32 0xFF800000#32

/-- The score of query head `i` against key head `g`: the dot product over the features, scaled. -/
def score (Q K : Fin 32 → Fin 128 → EReal) (i g : Fin 32) : EReal := (∑ d : Fin 128, Q i d * K g d) * scale

/-- The largest score of query head `i`, folded from minus infinity. -/
def rowMax (Q K : Fin 32 → Fin 128 → EReal) (i : Fin 32) : EReal :=
  (Finset.univ : Finset (Fin 32)).fold max negInf (fun g => score Q K i g)

/-- The exponential of a score less its row's maximum. -/
def ex (Q K : Fin 32 → Fin 128 → EReal) (i g : Fin 32) : EReal := Ideal.exp (score Q K i g - rowMax Q K i)

/-- The softmax denominator of query head `i`. -/
def den (Q K : Fin 32 → Fin 128 → EReal) (i : Fin 32) : EReal := ∑ g : Fin 32, ex Q K i g

/-- Attention over the heads at one position: the softmax weights of query head `i` against every key head, applied
    to the value rows. -/
def attnAt (Q K V : Fin 32 → Fin 128 → EReal) (i : Fin 32) (e : Fin 128) : EReal :=
  ∑ g : Fin 32, Ideal.div (ex Q K i g) (den Q K i) * V g e

/-- The key row position `p` attends to: 4p, clamped to the last row. -/
def keyRow (p : Fin 8192) : Fin 8192 := ⟨min (4 * p.val) 8191, by omega⟩

theorem keyRow_val (p : Fin 8192) : (keyRow p).val = min (4 * p.val) 8191 := rfl

/-- Below position 2048 the key row is 4p itself; -/
theorem keyRow_lt {p : Fin 8192} (h : p.val < 2048) : (keyRow p).val = 4 * p.val := by
  rw [keyRow_val]; omega

/-- from position 2048 on it is the last row. -/
theorem keyRow_ge {p : Fin 8192} (h : 2048 ≤ p.val) : (keyRow p).val = 8191 := by
  rw [keyRow_val]; omega

/-- The result at batch `b`, position `p`, head `i`, feature `e`. -/
def Gat (q k v : FVec Ideal SArr .f32) (b : Fin 2) (p : Fin 8192) (i : Fin 32) (e : Fin 128) : EReal :=
  attnAt (fun i d => q (ix4 b p i d)) (fun g d => k (ix4 b (keyRow p) g d)) (fun g e => v (ix4 b (keyRow p) g e)) i e

/-- The whole result array as one function of the three argument arrays. -/
def G (q k v : FVec Ideal SArr .f32) : FVec Ideal SArr .f32 := fun j => Gat q k v (j 0) (j 1) (j 2) (j 3)

theorem G_ix4 (q k v : FVec Ideal SArr .f32) (b : Fin 2) (p : Fin 8192) (i : Fin 32) (e : Fin 128) :
    G q k v (ix4 b p i e) = Gat q k v b p i e := rfl

/-- A fold of `max` from `c` is at least `c`, so taking the maximum with `c` once more changes nothing (the
    reference's softmax guards its row maximum this way). -/
theorem max_fold_max {ι : Type*} (s : Finset ι) (c : EReal) (f : ι → EReal) :
    max c (s.fold max c f) = s.fold max c f :=
  max_eq_right ((Finset.le_fold_max c).mpr (Or.inl le_rfl))

/-- `attnAt` depends on its rows only through their entries. -/
theorem attnAt_congr {Q Q' K K' V V' : Fin 32 → Fin 128 → EReal} (hQ : ∀ i d, Q i d = Q' i d) (hK : ∀ g d, K g d = K' g d)
    (hV : ∀ g e, V g e = V' g e) (i : Fin 32) (e : Fin 128) : attnAt Q K V i e = attnAt Q' K' V' i e := by
  have eQ : Q = Q' := funext fun i => funext fun d => hQ i d
  have eK : K = K' := funext fun g => funext fun d => hK g d
  have eV : V = V' := funext fun g => funext fun e => hV g e
  rw [eQ, eK, eV]

end Cert.DilatedAttn

end
-- ==== Proof.RefChain.lean ====
/-
  The reference's last configuration, from the reshaped queries and the gathered rows to the reshaped result, read at
  an entry: attention over the heads of the position's rows.

  The stages are read one at a time at the coordinates (b, 0, p, i, g) of the [2, 1, 8192, 32, 32] score array:
  the scaled dot product is `score`, the maximum over g folded from minus infinity (and guarded once more against
  minus infinity) is `rowMax`, the exponential of the difference is `ex`, the sum over g from zero is `den`, and the
  quotient applied to the gathered value rows is `attnAt`.
-/
import proofs.«116964_j51531017617692_2_alg».proof.Proof.RefRead
import proofs.«116964_j51531017617692_2_alg».proof.Proof.Spec
import Idealize.ShloMosaic.Lib.ValueIdx
import Idealize.ShloMosaic.Lib.Pipeline.Value
import Idealize.ShloMosaic.PureOps.Ideal.Laws

noncomputable section

namespace Cert.ReferenceIdeal.RefChain

open Cert.ReferenceIdeal Cert.ReferenceIdeal.Gen Cert.ReferenceIdeal.ReadP Cert.DilatedAttn Idealize.ShloMosaic Idealize.ShloMosaic.ValueIdx

variable (x0 x1 x2 : (⟨S2x8192x32x128, .f32⟩ : BufTy).Contents (Elt Ideal))

/-- The query rows at batch `b`, position `p`. -/
def Qr (b : Fin 2) (p : Fin 8192) : Fin 32 → Fin 128 → EReal := fun i d => x0 (ix4 b p i d)
/-- The gathered key rows at batch `b`, position `p`. -/
def Kr (b : Fin 2) (p : Fin 8192) : Fin 32 → Fin 128 → EReal := fun g d => val_main_v85 (F := Ideal) x1 (ix5 b (0 : Fin 1) p g d)
/-- The gathered value rows at batch `b`, position `p`. -/
def Vr (b : Fin 2) (p : Fin 8192) : Fin 32 → Fin 128 → EReal := fun g e => val_main_v92 (F := Ideal) x2 (ix5 b (0 : Fin 1) p g e)

/-- The reshape [2,8192,32,128] → [2,1,8192,32,128] keeps (b, p, i, d). -/
theorem idx66 (b : Fin 2) (p : Fin 8192) (i : Fin 32) (d : Fin 128) :
    idx_main_v66 (ix5 b (0 : Fin 1) p i d) = ix4 b p i d := by
  funext a; apply Fin.ext
  have hb := b.isLt; have hp := p.isLt; have hi := i.isLt; have hd := d.isLt
  match a with
  | ⟨0, _⟩ => show (((((b.val * 1 + 0) * 8192 + p.val) * 32 + i.val) * 128 + d.val) / 33554432) = b.val; omega
  | ⟨1, _⟩ => show (((((b.val * 1 + 0) * 8192 + p.val) * 32 + i.val) * 128 + d.val) / 4096 % 8192) = p.val; omega
  | ⟨2, _⟩ => show (((((b.val * 1 + 0) * 8192 + p.val) * 32 + i.val) * 128 + d.val) / 128 % 32) = i.val; omega
  | ⟨3, _⟩ => show (((((b.val * 1 + 0) * 8192 + p.val) * 32 + i.val) * 128 + d.val) % 128) = d.val; omega

/-- The reshape [2,1,8192,32,128] → [2,8192,32,128] likewise. -/
theorem idx108 (b : Fin 2) (p : Fin 8192) (i : Fin 32) (e : Fin 128) :
    idx_main_v108 (ix4 b p i e) = ix5 b (0 : Fin 1) p i e := by
  funext a; apply Fin.ext
  have hb := b.isLt; have hp := p.isLt; have hi := i.isLt; have he := e.isLt
  match a with
  | ⟨0, _⟩ => show ((((b.val * 8192 + p.val) * 32 + i.val) * 128 + e.val) / 33554432) = b.val; omega
  | ⟨1, _⟩ => rfl
  | ⟨2, _⟩ => show ((((b.val * 8192 + p.val) * 32 + i.val) * 128 + e.val) / 4096 % 8192) = p.val; omega
  | ⟨3, _⟩ => show ((((b.val * 8192 + p.val) * 32 + i.val) * 128 + e.val) / 128 % 32) = i.val; omega
  | ⟨4, _⟩ => show ((((b.val * 8192 + p.val) * 32 + i.val) * 128 + e.val) % 128) = e.val; omega

/-- The dot product over the features. -/
theorem v93_at (b : Fin 2) (p : Fin 8192) (i g : Fin 32) :
    val_main_v93 (F := Ideal) x0 x1 (ix5 b (0 : Fin 1) p i g) = ∑ d : Fin 128, Qr x0 b p i d * Kr x1 b p g d := by
  rw [val_main_v93_apply]
  refine Finset.sum_congr rfl fun d _ => ?_
  have el : lidx_main_v93 (ix5 b (0 : Fin 1) p i g) d = ix5 b (0 : Fin 1) p i d :=
    funext fun a => Fin.ext (by match a with | ⟨0, _⟩ => rfl | ⟨1, _⟩ => rfl | ⟨2, _⟩ => rfl | ⟨3, _⟩ => rfl | ⟨4, _⟩ => rfl)
  have er : ridx_main_v93 (ix5 b (0 : Fin 1) p i g) d = ix5 b (0 : Fin 1) p g d :=
    funext fun a => Fin.ext (by match a with | ⟨0, _⟩ => rfl | ⟨1, _⟩ => rfl | ⟨2, _⟩ => rfl | ⟨3, _⟩ => rfl | ⟨4, _⟩ => rfl)
  rw [el, er, val_main_v66_apply, idx66]
  rfl

/-- The scaled score. -/
theorem v95_at (b : Fin 2) (p : Fin 8192) (i g : Fin 32) :
    val_main_v95 (F := Ideal) x0 x1 (ix5 b (0 : Fin 1) p i g) = score (Qr x0 b p) (Kr x1 b p) i g := by
  rw [val_main_v95_apply, v93_at, val_main_v94_apply, val_main_cst_24_apply]
  rfl

/-- The row maximum, as the host's reduce gives it. -/
theorem v96_at (b : Fin 2) (p : Fin 8192) (i : Fin 32) :
    val_main_v96 (F := Ideal) x0 x1 (ix4 b (0 : Fin 1) p i) = rowMax (Qr x0 b p) (Kr x1 b p) i := by
  unfold val_main_v96
  have hR : S2x1x8192x32x32.Reduces [(4 : Fin 5)] S2x1x8192x32 := by decide
  rw [Host.reduce_eq_fold_single FloatOps.maximumf _ _ reducesTo_S2x1x8192x32x32_S2x1x8192x32_d4 hR h_S_]
  show (Finset.univ : Finset (Fin 32)).fold max negInf (fun g => val_main_v95 (F := Ideal) x0 x1 (hR.lift (ix4 b (0 : Fin 1) p i) g)) = _
  unfold rowMax
  have e : ∀ g : Fin 32, hR.lift (ix4 b (0 : Fin 1) p i) g = ix5 b (0 : Fin 1) p i g := fun g =>
    funext fun a => Fin.ext (by match a with | ⟨0, _⟩ => rfl | ⟨1, _⟩ => rfl | ⟨2, _⟩ => rfl | ⟨3, _⟩ => rfl | ⟨4, _⟩ => rfl)
  have step : ∀ g : Fin 32, val_main_v95 (F := Ideal) x0 x1 (hR.lift (ix4 b (0 : Fin 1) p i) g)
      = score (Qr x0 b p) (Kr x1 b p) i g := fun g => by rw [e g, v95_at]
  exact Finset.fold_congr fun g _ => step g

/-- Guarded against minus infinity once more, it is still the row maximum. -/
theorem v98_at (b : Fin 2) (p : Fin 8192) (i : Fin 32) :
    val_main_v98 (F := Ideal) x0 x1 (ix4 b (0 : Fin 1) p i) = rowMax (Qr x0 b p) (Kr x1 b p) i := by
  rw [val_main_v98_apply, v96_at, val_main_v97_apply, val_main_cst_26_apply]
  show max negInf (rowMax (Qr x0 b p) (Kr x1 b p) i) = _
  unfold rowMax
  exact max_fold_max _ _ _

/-- Broadcast back along the key heads. -/
theorem v100_at (b : Fin 2) (p : Fin 8192) (i g : Fin 32) :
    val_main_v100 (F := Ideal) x0 x1 (ix5 b (0 : Fin 1) p i g) = rowMax (Qr x0 b p) (Kr x1 b p) i := by
  rw [val_main_v100_apply, val_main_v99_apply]
  have e : idx_main_v99 (idx_main_v100 (ix5 b (0 : Fin 1) p i g)) = ix4 b (0 : Fin 1) p i :=
    funext fun a => Fin.ext (by match a with | ⟨0, _⟩ => rfl | ⟨1, _⟩ => rfl | ⟨2, _⟩ => rfl | ⟨3, _⟩ => rfl)
  rw [e, v98_at]

/-- The exponentials. -/
theorem v102_at (b : Fin 2) (p : Fin 8192) (i g : Fin 32) :
    val_main_v102 (F := Ideal) x0 x1 (ix5 b (0 : Fin 1) p i g) = ex (Qr x0 b p) (Kr x1 b p) i g := by
  rw [val_main_v102_apply, val_main_v101_apply, v95_at, v100_at]
  rfl

/-- Their sum over the key heads. -/
theorem v103_at (b : Fin 2) (p : Fin 8192) (i : Fin 32) :
    val_main_v103 (F := Ideal) x0 x1 (ix4 b (0 : Fin 1) p i) = den (Qr x0 b p) (Kr x1 b p) i := by
  rw [val_main_v103_apply, val_main_cst_27_apply]
  show Ideal.ofBits .f32 0x00000000#32 + _ = _
  rw [Ideal.ofBits_zero_f32, zero_add]
  unfold den
  refine Finset.sum_congr rfl fun g _ => ?_
  have e : idx_main_v103 (ix4 b (0 : Fin 1) p i) g = ix5 b (0 : Fin 1) p i g :=
    funext fun a => Fin.ext (by match a with | ⟨0, _⟩ => rfl | ⟨1, _⟩ => rfl | ⟨2, _⟩ => rfl | ⟨3, _⟩ => rfl | ⟨4, _⟩ => rfl)
  rw [e, v102_at]

/-- Broadcast back along the key heads. -/
theorem v105_at (b : Fin 2) (p : Fin 8192) (i g : Fin 32) :
    val_main_v105 (F := Ideal) x0 x1 (ix5 b (0 : Fin 1) p i g) = den (Qr x0 b p) (Kr x1 b p) i := by
  rw [val_main_v105_apply, val_main_v104_apply]
  have e : idx_main_v104 (idx_main_v105 (ix5 b (0 : Fin 1) p i g)) = ix4 b (0 : Fin 1) p i :=
    funext fun a => Fin.ext (by match a with | ⟨0, _⟩ => rfl | ⟨1, _⟩ => rfl | ⟨2, _⟩ => rfl | ⟨3, _⟩ => rfl)
  rw [e, v103_at]

/-- The softmax weights. -/
theorem v106_at (b : Fin 2) (p : Fin 8192) (i g : Fin 32) :
    val_main_v106 (F := Ideal) x0 x1 (ix5 b (0 : Fin 1) p i g)
      = Ideal.div (ex (Qr x0 b p) (Kr x1 b p) i g) (den (Qr x0 b p) (Kr x1 b p) i) := by
  rw [val_main_v106_apply, v102_at, v105_at]
  rfl

/-- The weights applied to the gathered value rows. -/
theorem v107_at (b : Fin 2) (p : Fin 8192) (i : Fin 32) (e : Fin 128) :
    val_main_v107 (F := Ideal) x0 x1 x2 (ix5 b (0 : Fin 1) p i e) = attnAt (Qr x0 b p) (Kr x1 b p) (Vr x2 b p) i e := by
  rw [val_main_v107_apply]
  unfold attnAt
  refine Finset.sum_congr rfl fun g _ => ?_
  have el : lidx_main_v107 (ix5 b (0 : Fin 1) p i e) g = ix5 b (0 : Fin 1) p i g :=
    funext fun a => Fin.ext (by match a with | ⟨0, _⟩ => rfl | ⟨1, _⟩ => rfl | ⟨2, _⟩ => rfl | ⟨3, _⟩ => rfl | ⟨4, _⟩ => rfl)
  have er : ridx_main_v107 (ix5 b (0 : Fin 1) p i e) g = ix5 b (0 : Fin 1) p g e :=
    funext fun a => Fin.ext (by match a with | ⟨0, _⟩ => rfl | ⟨1, _⟩ => rfl | ⟨2, _⟩ => rfl | ⟨3, _⟩ => rfl | ⟨4, _⟩ => rfl)
  rw [el, er, v106_at]
  rfl

/-- The reshaped result at (b, p, i, e): attention over the heads of the position's query rows and gathered rows. -/
theorem v108_apply (b : Fin 2) (p : Fin 8192) (i : Fin 32) (e : Fin 128) :
    val_main_v108 (F := Ideal) x0 x1 x2 (ix4 b p i e)
      = attnAt (fun i' d => x0 (ix4 b p i' d)) (fun g d => val_main_v85 (F := Ideal) x1 (ix5 b (0 : Fin 1) p g d))
          (fun g e' => val_main_v92 (F := Ideal) x2 (ix5 b (0 : Fin 1) p g e')) i e := by
  rw [val_main_v108_apply, idx108, v107_at]
  rfl

end Cert.ReferenceIdeal.RefChain

end
-- ==== Proof.LibScatterSet.lean ====
/-
  A host scatter whose body returns the update ("set"), read at one element.

  The operation folds over the update's elements in order; each lands at one element of the operand or is dropped.
  At an element that exactly one update element lands on, the result is that update element; at an element none
  lands on, the result is the operand's.  Both facts are generic in the shapes and the dimension numbers.
-/
import Idealize.ShloMosaic.PureOps

noncomputable section

namespace Idealize.ShloMosaic.ScatterSet

open Idealize.ShloMosaic

variable {ι α β : Type} [DecidableEq ι]

/-- One step of the fold: the element the update lands on is replaced, every other kept. -/
def step (g : β → Option ι) (v : β → α) (r : ι → α) (n : β) : ι → α :=
  match g n with
  | some i => fun i' => if i' = i then v n else r i'
  | none => r

theorem step_miss (g : β → Option ι) (v : β → α) (r : ι → α) (n : β) (i' : ι) (h : g n ≠ some i') :
    step g v r n i' = r i' := by
  unfold step
  cases hg : g n with
  | none => rfl
  | some i =>
    have : i' ≠ i := fun e => h (by rw [hg, e])
    simp only [if_neg this]

theorem step_hit (g : β → Option ι) (v : β → α) (r : ι → α) (n : β) (i' : ι) (h : g n = some i') :
    step g v r n i' = v n := by
  unfold step
  rw [h]
  exact if_pos rfl

/-- An element no update of the list lands on keeps its contents through the fold. -/
theorem foldl_miss (g : β → Option ι) (v : β → α) (l : List β) (x : ι → α) (i' : ι)
    (h : ∀ n ∈ l, g n ≠ some i') : l.foldl (step g v) x i' = x i' := by
  induction l generalizing x with
  | nil => rfl
  | cons n l ih =>
    rw [List.foldl_cons, ih (step g v x n) (fun n' hn' => h n' (List.mem_cons_of_mem _ hn'))]
    exact step_miss g v x n i' (h n List.mem_cons_self)

/-- An element exactly one update of a duplicate-free list lands on ends at that update. -/
theorem foldl_hit (g : β → Option ι) (v : β → α) (l : List β) (hnd : l.Nodup) (x : ι → α) (i' : ι) (n0 : β)
    (hmem : n0 ∈ l) (h0 : g n0 = some i') (huniq : ∀ n ∈ l, g n = some i' → n = n0) :
    l.foldl (step g v) x i' = v n0 := by
  induction l generalizing x with
  | nil => exact absurd hmem (List.not_mem_nil)
  | cons n l ih =>
    rw [List.foldl_cons]
    have hnd' := List.nodup_cons.mp hnd
    by_cases hn : n = n0
    · subst hn
      rw [foldl_miss g v l _ i' (fun n' hn' e => hnd'.1 (by rw [← huniq n' (List.mem_cons_of_mem _ hn') e]; exact hn'))]
      exact step_hit g v x n i' h0
    · have hmem' : n0 ∈ l := by
        rcases List.mem_cons.mp hmem with e | e
        · exact absurd e.symm hn
        · exact e
      exact ih hnd'.2 _ hmem' (fun n' hn' => huniq n' (List.mem_cons_of_mem _ hn'))

variable {s si u : Shape} {w : Nat}

/-- The host scatter is the fold of `step` over the update's elements in row-major order. -/
theorem scatter_eq_foldl (d : ScatterDims s si u) (x : s.Idx → α) (idx : IVec si w) (upd : u.Idx → α) :
    Host.scatter d (fun _ b => b) x idx upd
      = (List.finRange u.numel).foldl (step (fun n => d.resultIdx? (u.rowMajor.symm n) idx) (fun n => upd (u.rowMajor.symm n))) x := by
  unfold Host.scatter
  refine congrArg (fun f => List.foldl f x (List.finRange u.numel)) ?_
  funext r n
  unfold step
  beta_reduce
  cases d.resultIdx? (u.rowMajor.symm n) idx with
  | none => rfl
  | some i =>
    funext i'
    by_cases hi : i' = i
    · exact (if_pos hi).trans (if_pos hi).symm
    · exact (if_neg hi).trans (if_neg hi).symm

/-- At an element that update element `j0`, and no other, lands on, a set-scatter holds `upd j0`. -/
theorem scatter_set_hit (d : ScatterDims s si u) (x : s.Idx → α) (idx : IVec si w) (upd : u.Idx → α) (i' : s.Idx) (j0 : u.Idx)
    (h0 : d.resultIdx? j0 idx = some i') (huniq : ∀ j, d.resultIdx? j idx = some i' → j = j0) :
    Host.scatter d (fun _ b => b) x idx upd i' = upd j0 := by
  rw [scatter_eq_foldl]
  have := foldl_hit (fun n => d.resultIdx? (u.rowMajor.symm n) idx) (fun n => upd (u.rowMajor.symm n))
    (List.finRange u.numel) (List.nodup_finRange _) x i' (u.rowMajor j0) (List.mem_finRange _)
    (by simp only [Equiv.symm_apply_apply]; exact h0)
    (fun n _ hn => by
      have := huniq _ hn
      rw [← this, Equiv.apply_symm_apply])
  rw [this, Equiv.symm_apply_apply]

/-- At an element no update element lands on, a set-scatter holds the operand's element. -/
theorem scatter_set_miss (d : ScatterDims s si u) (x : s.Idx → α) (idx : IVec si w) (upd : u.Idx → α) (i' : s.Idx)
    (h : ∀ j, d.resultIdx? j idx ≠ some i') :
    Host.scatter d (fun _ b => b) x idx upd i' = x i' := by
  rw [scatter_eq_foldl]
  exact foldl_miss _ _ _ x i' (fun n _ => h _)

end Idealize.ShloMosaic.ScatterSet

end
-- ==== Proof.RefGather.lean ====
/-
  The reference's two row gathers of its last configuration read at an entry — the key (value) row it picks at
  position p is the row min(4p, 8191) — and its last overwrite of the whole result array.
-/
import proofs.«116964_j51531017617692_2_alg».proof.Proof.RefRead
import proofs.«116964_j51531017617692_2_alg».proof.Proof.Spec
import proofs.«116964_j51531017617692_2_alg».proof.Proof.LibScatterSet
import Idealize.ShloMosaic.Lib.ValueIdx
import Idealize.ShloMosaic.Lib.Pipeline.Value

noncomputable section

namespace Cert.ReferenceIdeal.RefGather

open Cert.ReferenceIdeal Cert.ReferenceIdeal.ReadP Cert.DilatedAttn Idealize.ShloMosaic Idealize.ShloMosaic.ValueIdx

/-! ## The start indices: the 32-bit word of min(4p, 8191) -/

/-- A natural below 2^31 written as a 32-bit word reads back, signed, as itself. -/
private theorem toInt_word (k : Nat) (hk : k < 2 ^ 31) : (BitVec.ofNat 32 k).toInt = (k : Int) := by
  rw [BitVec.toInt_ofNat']
  exact Int.bmod_eq_of_le (by omega) (by omega)

/-- The 32-bit arithmetic of a start index: 0 · 8192 + n · 4 does not wrap for n < 8192, and its signed minimum
    with 8191 is the word of min(4n, 8191). -/
private theorem idx_word (n : Nat) (hn : n < 8192) :
    IntOp.minsi (IntOp.addi (IntOp.muli (BitVec.ofNat 32 0) 8192#32) (IntOp.muli (BitVec.ofNat 32 n) 4#32)) 8191#32
      = BitVec.ofNat 32 (min (4 * n) 8191) := by
  have h1 : IntOp.addi (IntOp.muli (BitVec.ofNat 32 0) 8192#32) (IntOp.muli (BitVec.ofNat 32 n) 4#32)
      = BitVec.ofNat 32 (4 * n) := by
    unfold IntOp.addi IntOp.muli
    apply BitVec.eq_of_toNat_eq
    simp only [BitVec.toNat_add, BitVec.toNat_mul, BitVec.toNat_ofNat]
    omega
  rw [h1]
  unfold IntOp.minsi
  have h2 : (BitVec.ofNat 32 (4 * n)).toInt = ((4 * n : Nat) : Int) := toInt_word _ (by omega)
  have h3 : (8191#32 : BitVec 32).toInt = 8191 := by decide
  by_cases hs : (BitVec.ofNat 32 (4 * n)).slt 8191#32
  · rw [if_pos hs]
    rw [BitVec.slt_iff_toInt_lt, h2, h3] at hs
    congr 1; omega
  · rw [if_neg hs]
    rw [BitVec.slt_iff_toInt_lt, h2, h3] at hs
    have : min (4 * n) 8191 = 8191 := by omega
    rw [this]

/-- The word of a natural at most 8191 is not negative: "if negative, add the axis length" leaves it as it is. -/
private theorem wrap_word (k : Nat) (hk : k ≤ 8191) (c : BitVec 32) :
    Scalar.select (IntOp.cmpi .slt (BitVec.ofNat 32 k) 0#32) (IntOp.addi (BitVec.ofNat 32 k) c) (BitVec.ofNat 32 k)
      = BitVec.ofNat 32 k := by
  have hc : IntOp.cmpi .slt (BitVec.ofNat 32 k) 0#32 = 0#1 := by
    unfold IntOp.cmpi
    have : (BitVec.ofNat 32 k).slt 0#32 = false := by
      rw [Bool.eq_false_iff]; intro h
      rw [BitVec.slt_iff_toInt_lt, toInt_word k (by omega)] at h
      have : (0#32 : BitVec 32).toInt = 0 := by decide
      omega
    simp only [this]
    rfl
  rw [hc, select_zero]

/-- Such a word, read signed and clamped into [0, 8191], is the natural itself. -/
private theorem clamp_word (k : Nat) (hk : k ≤ 8191) : min (BitVec.ofNat 32 k).toInt.toNat 8191 = k := by
  rw [toInt_word k (by omega)]
  omega

/-- The row index before the sign test, at column p of the [1, 8192] index array: the word of min(4p, 8191). -/
private theorem v78_word (i : S1x8192.Idx) :
    val_main_v78 (F := Ideal) i = BitVec.ofNat 32 (min (4 * (i 1).val) 8191) := by
  rw [val_main_v78_apply, val_main_v76_apply, val_main_v75_apply, val_main_v70_apply, val_main_v68_apply,
    val_main_v67_apply, val_main_v69_apply, val_main_c_17_apply, val_main_v74_apply, val_main_v72_apply,
    val_main_v71_apply, val_main_v73_apply, val_main_c_18_apply, val_main_v77_apply, val_main_c_19_apply]
  exact idx_word (i 1).val (i 1).isLt

/-- The key gather's start index at position p is the word of the row min(4p, 8191). -/
private theorem v84_word (p : Fin 8192) :
    val_main_v84 (F := Ideal) (ix3 (0 : Fin 1) p (0 : Fin 1)) = BitVec.ofNat 32 (keyRow p).val := by
  rw [val_main_v84_apply, val_main_v83_apply, val_main_v80_apply, val_main_v82_apply, val_main_v79_apply,
    val_main_c_20_apply, val_main_v81_apply, val_main_c_21_apply, v78_word]
  exact wrap_word _ (Nat.min_le_right _ _) _

/-- The value gather's start index at position p is the same word. -/
private theorem v91_word (p : Fin 8192) :
    val_main_v91 (F := Ideal) (ix3 (0 : Fin 1) p (0 : Fin 1)) = BitVec.ofNat 32 (keyRow p).val := by
  rw [val_main_v91_apply, val_main_v90_apply, val_main_v87_apply, val_main_v89_apply, val_main_v86_apply,
    val_main_c_22_apply, val_main_v88_apply, val_main_c_23_apply, v78_word]
  exact wrap_word _ (Nat.min_le_right _ _) _

/-! ## The gather of whole [2, 1, 32, 128] slices along the position axis, read at an entry -/

/-- Entry (b, 0, p, g, e) of the gather is the operand at (b, r, g, e), where r is the start index at (0, p, 0) read
    signed and clamped into [0, 8191]: axis 1 is the one collapsed axis and the one the start index names, the axes
    0, 2, 3 carry the result's offset coordinates 0, 3, 4 and start at 0. -/
private theorem gather_rows_apply {α : Type} (x : S2x8192x32x128.Idx → α) (idx : IVec S1x8192x1 32)
    (b : Fin 2) (p : Fin 8192) (g : Fin 32) (e : Fin 128) (r : Fin 8192)
    (hr : min (idx (ix3 (0 : Fin 1) p (0 : Fin 1))).toInt.toNat 8191 = r.val) :
    Host.gather gather_S2x8192x32x128_S1x8192x1_S2x1x8192x32x128_034_1_n_n_1_2_2132128 x idx (ix5 b (0 : Fin 1) p g e) = x (ix4 b r g e) := by
  unfold Host.gather
  congr 1
  funext a
  refine Fin.ext ?_
  match a with
  | ⟨0, _⟩ =>
    show GatherDims.start _ _ idx 0 + GatherDims.batchCoord _ _ 0 + GatherDims.offCoord _ _ 0 = b.val
    rw [GatherDims.batchCoord_eq_zero _ _ _ List.not_mem_nil]
    unfold GatherDims.start
    rw [dif_neg (show ¬ (0 : Fin 4) ∈ gather_S2x8192x32x128_S1x8192x1_S2x1x8192x32x128_034_1_n_n_1_2_2132128.startIndexMap by decide)]
    simp only [Nat.add_zero, Nat.zero_add]
    rfl
  | ⟨1, _⟩ =>
    show GatherDims.start _ _ idx 1 + GatherDims.batchCoord _ _ 1 + GatherDims.offCoord _ _ 1 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ gather_S2x8192x32x128_S1x8192x1_S2x1x8192x32x128_034_1_n_n_1_2_2132128.startIndexMap from List.mem_singleton.mpr rfl)]
    have hsi : gather_S2x8192x32x128_S1x8192x1_S2x1x8192x32x128_034_1_n_n_1_2_2132128.siIdx (ix5 b (0 : Fin 1) p g e)
        ⟨List.idxOf (1 : Fin 4) gather_S2x8192x32x128_S1x8192x1_S2x1x8192x32x128_034_1_n_n_1_2_2132128.startIndexMap, List.idxOf_lt_length_iff.2 (List.mem_singleton.mpr rfl)⟩
        = ix3 (0 : Fin 1) p (0 : Fin 1) := by
      funext c; refine Fin.ext ?_
      match c with
      | ⟨0, _⟩ => rfl
      | ⟨1, _⟩ => rfl
      | ⟨2, _⟩ => rfl
    rw [hsi]
    exact hr
  | ⟨2, _⟩ =>
    show GatherDims.start _ _ idx 2 + GatherDims.batchCoord _ _ 2 + GatherDims.offCoord _ _ 2 = g.val
    rw [GatherDims.batchCoord_eq_zero _ _ _ List.not_mem_nil]
    unfold GatherDims.start
    rw [dif_neg (show ¬ (2 : Fin 4) ∈ gather_S2x8192x32x128_S1x8192x1_S2x1x8192x32x128_034_1_n_n_1_2_2132128.startIndexMap by decide)]
    simp only [Nat.add_zero, Nat.zero_add]
    rfl
  | ⟨3, _⟩ =>
    show GatherDims.start _ _ idx 3 + GatherDims.batchCoord _ _ 3 + GatherDims.offCoord _ _ 3 = e.val
    rw [GatherDims.batchCoord_eq_zero _ _ _ List.not_mem_nil]
    unfold GatherDims.start
    rw [dif_neg (show ¬ (3 : Fin 4) ∈ gather_S2x8192x32x128_S1x8192x1_S2x1x8192x32x128_034_1_n_n_1_2_2132128.startIndexMap by decide)]
    simp only [Nat.add_zero, Nat.zero_add]
    rfl

/-- The gathered key rows: entry (b, 0, p, g, d) is the key at batch b, row min(4p, 8191). -/
theorem v85_apply (x1 : (⟨S2x8192x32x128, .f32⟩ : BufTy).Contents (Elt Ideal)) (b : Fin 2) (p : Fin 8192) (g : Fin 32) (d : Fin 128) :
    val_main_v85 (F := Ideal) x1 (ix5 b (0 : Fin 1) p g d) = x1 (ix4 b (keyRow p) g d) := by
  unfold val_main_v85
  refine gather_rows_apply x1 _ b p g d (keyRow p) ?_
  rw [v84_word]
  exact clamp_word _ (Nat.min_le_right _ _)

/-- The gathered value rows likewise. -/
theorem v92_apply (x2 : (⟨S2x8192x32x128, .f32⟩ : BufTy).Contents (Elt Ideal)) (b : Fin 2) (p : Fin 8192) (g : Fin 32) (e : Fin 128) :
    val_main_v92 (F := Ideal) x2 (ix5 b (0 : Fin 1) p g e) = x2 (ix4 b (keyRow p) g e) := by
  unfold val_main_v92
  refine gather_rows_apply x2 _ b p g e (keyRow p) ?_
  rw [v91_word]
  exact clamp_word _ (Nat.min_le_right _ _)

/-! ## The scatter whose window is the whole array -/

/-- No operand axis is a scatter axis: every window starts at 0. -/
private theorem scat_start {w : Nat} (j : S2x8192x32x128.Idx) (idx : IVec S0 w) (a : Fin 4) :
    scatter_S2x8192x32x128_S0_S2x8192x32x128_0123_n_n_0.start j idx a = 0 := by
  unfold ScatterDims.start
  rw [dif_neg (show ¬ a ∈ scatter_S2x8192x32x128_S0_S2x8192x32x128_0123_n_n_0.scatterDimsToOperandDims from List.not_mem_nil)]

/-- Every operand axis is a window axis, axis a of the update going to axis a of the operand. -/
private theorem scat_window (j : S2x8192x32x128.Idx) (a : Fin 4) :
    scatter_S2x8192x32x128_S0_S2x8192x32x128_0123_n_n_0.window j a = (j a).val := by
  have h0 : scatter_S2x8192x32x128_S0_S2x8192x32x128_0123_n_n_0.window j (0 : Fin 4) = (j (0 : Fin 4)).val := by
    unfold ScatterDims.window
    rw [dif_pos (show (0 : Fin 4) ∈ scatter_S2x8192x32x128_S0_S2x8192x32x128_0123_n_n_0.sKept by decide)]; rfl
  have h1 : scatter_S2x8192x32x128_S0_S2x8192x32x128_0123_n_n_0.window j (1 : Fin 4) = (j (1 : Fin 4)).val := by
    unfold ScatterDims.window
    rw [dif_pos (show (1 : Fin 4) ∈ scatter_S2x8192x32x128_S0_S2x8192x32x128_0123_n_n_0.sKept by decide)]; rfl
  have h2 : scatter_S2x8192x32x128_S0_S2x8192x32x128_0123_n_n_0.window j (2 : Fin 4) = (j (2 : Fin 4)).val := by
    unfold ScatterDims.window
    rw [dif_pos (show (2 : Fin 4) ∈ scatter_S2x8192x32x128_S0_S2x8192x32x128_0123_n_n_0.sKept by decide)]; rfl
  have h3 : scatter_S2x8192x32x128_S0_S2x8192x32x128_0123_n_n_0.window j (3 : Fin 4) = (j (3 : Fin 4)).val := by
    unfold ScatterDims.window
    rw [dif_pos (show (3 : Fin 4) ∈ scatter_S2x8192x32x128_S0_S2x8192x32x128_0123_n_n_0.sKept by decide)]; rfl
  match a with
  | ⟨0, _⟩ => exact h0
  | ⟨1, _⟩ => exact h1
  | ⟨2, _⟩ => exact h2
  | ⟨3, _⟩ => exact h3

/-- So update element j lands on operand element j, whatever the (empty) index operand holds. -/
private theorem scat_result {w : Nat} (j : S2x8192x32x128.Idx) (idx : IVec S0 w) :
    scatter_S2x8192x32x128_S0_S2x8192x32x128_0123_n_n_0.resultIdx? j idx = some j := by
  unfold ScatterDims.resultIdx?
  have h : ∀ a, 0 ≤ scatter_S2x8192x32x128_S0_S2x8192x32x128_0123_n_n_0.start j idx a + scatter_S2x8192x32x128_S0_S2x8192x32x128_0123_n_n_0.window j a
      ∧ scatter_S2x8192x32x128_S0_S2x8192x32x128_0123_n_n_0.start j idx a + scatter_S2x8192x32x128_S0_S2x8192x32x128_0123_n_n_0.window j a < S2x8192x32x128.size a := by
    intro a
    rw [scat_start, scat_window]
    have := (j a).isLt
    constructor <;> omega
  rw [dif_pos h]
  congr 1
  funext a
  refine Fin.ext ?_
  show (scatter_S2x8192x32x128_S0_S2x8192x32x128_0123_n_n_0.start j idx a + scatter_S2x8192x32x128_S0_S2x8192x32x128_0123_n_n_0.window j a).toNat = (j a).val
  rw [scat_start, scat_window]
  omega

/-- The last scatter's window is the whole array at the empty index, and its body returns the update: the result is
    the update, whatever the operand held (the two earlier configurations' results). -/
theorem v109_eq_v108 (x0 x1 x2 : (⟨S2x8192x32x128, .f32⟩ : BufTy).Contents (Elt Ideal)) :
    val_main_v109 (F := Ideal) x0 x1 x2 = val_main_v108 (F := Ideal) x0 x1 x2 := by
  unfold val_main_v109
  generalize val_main_v65 (F := Ideal) x0 x1 x2 = y
  generalize val_main_v108 (F := Ideal) x0 x1 x2 = u
  funext i'
  exact ScatterSet.scatter_set_hit _ y _ u i' i' (scat_result i' _)
    (fun j hj => by rw [scat_result] at hj; exact Option.some.inj hj)

end Cert.ReferenceIdeal.RefGather

end
-- ==== Proof.RefValue.lean ====
/-
  The reference's result array is `G` of its arguments: the last overwrite leaves the last configuration's result,
  which at (b, p, i, e) is attention over the heads of the query rows at p and of the gathered rows, and the
  gathered rows are the key and value rows at min(4p, 8191).
-/
import proofs.«116964_j51531017617692_2_alg».proof.Proof.RefRead
import proofs.«116964_j51531017617692_2_alg».proof.Proof.RefChain
import proofs.«116964_j51531017617692_2_alg».proof.Proof.RefGather
import proofs.«116964_j51531017617692_2_alg».proof.Proof.Spec

noncomputable section

namespace Cert.ReferenceIdeal.RefValue

open Cert.ReferenceIdeal Cert.ReferenceIdeal.ReadP Cert.DilatedAttn Idealize.ShloMosaic Idealize.ShloMosaic.ValueIdx

theorem ref_eq_G (x0 x1 x2 : (⟨S2x8192x32x128, .f32⟩ : BufTy).Contents (Elt Ideal)) :
    val_main_v109 (F := Ideal) x0 x1 x2 = G x0 x1 x2 := by
  rw [Cert.ReferenceIdeal.RefGather.v109_eq_v108]
  funext j
  obtain ⟨b, p, i, e, rfl⟩ : ∃ (b : Fin 2) (p : Fin 8192) (i : Fin 32) (e : Fin 128), j = ix4 b p i e :=
    ⟨j 0, j 1, j 2, j 3, eq_ix4 j⟩
  rw [Cert.ReferenceIdeal.RefChain.v108_apply, G_ix4]
  unfold Gat
  exact attnAt_congr (fun _ _ => rfl) (fun g d => Cert.ReferenceIdeal.RefGather.v85_apply x1 b p g d)
    (fun g e' => Cert.ReferenceIdeal.RefGather.v92_apply x2 b p g e') i e

end Cert.ReferenceIdeal.RefValue

end
-- ==== Proof.Pay23.lean ====
/-
  The first half of the block body at one entry: which key (or value) rows a block row uses, and the exponentials of
  the scores less their row maximum.
-/
import proofs.«116964_j51531017617692_2_alg».proof.Proof.Gen.KernelIdeal.Skeleton
import proofs.«116964_j51531017617692_2_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.KernelIdeal.Payload

open Cert.KernelIdeal Cert.KernelIdeal.Gen Cert.DilatedAttn Idealize.ShloMosaic Idealize.ShloMosaic.ValueIdx

/-- The key (or value) rows block row `r` uses at grid point `i`: in the first sixteen position tiles the row `r` of
    the strided block `xA` (its unit axis at 0), in the later tiles the one shared last row `xL`. -/
def effRows (i : grid0.Coords) (xA : Vec Ideal S1x128x1x32x128 .f32) (xL : Vec Ideal S1x32x128 .f32) (r : Fin 128) :
    Fin 32 → Fin 128 → EReal :=
  fun g d => if (i 1).val < 16 then xA (ix5 (0 : Fin 1) r (0 : Fin 1) g d) else xL (ix3 (0 : Fin 1) g d)

/-- The grid's second coordinate is below 64. -/
private theorem coord1_lt (i : grid0.Coords) : (i 1).val < 64 := (i 1).isLt

/-- The signed comparison "n < 16" of 32-bit words holds for a natural n below 16 … -/
private theorem cond_one (n : Nat) (h : n < 16) : Scalar.cmpi .slt (BitVec.ofNat 32 n) 16#32 = 1#1 :=
  Affine.slt_holds (Affine.ofNat n ⟨rfl, by omega⟩) (Affine.ofNat 16 ⟨rfl, by omega⟩) (by omega)

/-- … and fails for 16 ≤ n < 64. -/
private theorem cond_not_one (n : Nat) (h : 16 ≤ n) (h' : n < 64) : ¬Scalar.cmpi .slt (BitVec.ofNat 32 n) 16#32 = 1#1 :=
  Affine.slt_fails (Affine.ofNat n ⟨rfl, by omega⟩) (Affine.ofNat 16 ⟨rfl, by omega⟩) (by omega)

/-- The strided block re-laid [1,128,1,32,128] → [128,1,32,128] → [128,32,128] and narrowed: entry (r, g, d). -/
private theorem strided_apply (x : Vec Ideal S1x128x1x32x128 .f32) (r : Fin 128) (g : Fin 32) (d : Fin 128) :
    (truncf .bf16 (shapeCast S128x32x128 (shapeCast S128x1x32x128 x shapeCasts_S1x128x1x32x128_S128x1x32x128)
      shapeCasts_S128x1x32x128_S128x32x128) bitsLt_bf16_f32 : FVec Ideal S128x32x128 .bf16) (ix3 r g d)
      = x (ix5 (0 : Fin 1) r (0 : Fin 1) g d) := by
  refine (truncf_apply (φ := .f32) (ψ := .bf16) _ bitsLt_bf16_f32 (ix3 r g d)).trans ?_
  refine (shapeCast_apply _ _ (ix3 r g d) (ix4 r (0 : Fin 1) g d) ?_).trans ?_
  · rw [Shape.rowMajor_val_three, Shape.rowMajor_val_four]
    show ((r.val * 1 + 0) * 32 + g.val) * 128 + d.val = (r.val * 32 + g.val) * 128 + d.val
    omega
  refine (shapeCast_apply _ _ (ix4 r (0 : Fin 1) g d) (ix5 (0 : Fin 1) r (0 : Fin 1) g d) ?_)
  rw [Shape.rowMajor_val_four, Shape.rowMajor_val_five]
  show (((0 * 128 + r.val) * 1 + 0) * 32 + g.val) * 128 + d.val = ((r.val * 1 + 0) * 32 + g.val) * 128 + d.val
  omega

/-- The shared last row re-laid [1,32,128] → [32,128], narrowed, → [1,32,128] and broadcast down the 128 block rows:
    entry (r, g, d) is the row's entry (g, d), whatever r. -/
private theorem lastRow_apply (x : Vec Ideal S1x32x128 .f32) (r : Fin 128) (g : Fin 32) (d : Fin 128) :
    (broadcastTo S128x32x128 (shapeCast S1x32x128 (shapeCast S1x32x128
      (truncf .bf16 (shapeCast S32x128 x shapeCasts_S1x32x128_S32x128) bitsLt_bf16_f32 : FVec Ideal S32x128 .bf16)
      shapeCasts_S32x128_S1x32x128) shapeCasts_S1x32x128_S1x32x128) broadcasts_S1x32x128_S128x32x128
        : FVec Ideal S128x32x128 .bf16) (ix3 r g d)
      = x (ix3 (0 : Fin 1) g d) := by
  refine (broadcastTo_apply _ _ (ix3 r g d) (ix3 (0 : Fin 1) g d) ?_).trans ?_
  · intro a
    match a with
    | ⟨0, _⟩ => rfl
    | ⟨1, _⟩ => rfl
    | ⟨2, _⟩ => rfl
  rw [shapeCast_self]
  refine (shapeCast_apply _ _ (ix3 (0 : Fin 1) g d) (ix2 g d) ?_).trans ?_
  · rw [Shape.rowMajor_val_two, Shape.rowMajor_val_three]
    show g.val * 128 + d.val = ((0 * 32 + g.val) * 128) + d.val
    omega
  refine (truncf_apply (φ := .f32) (ψ := .bf16) _ bitsLt_bf16_f32 (ix2 g d)).trans ?_
  refine (shapeCast_apply _ _ (ix2 g d) (ix3 (0 : Fin 1) g d) ?_)
  rw [Shape.rowMajor_val_two, Shape.rowMajor_val_three]
  show ((0 * 32 + g.val) * 128) + d.val = g.val * 128 + d.val
  omega

/-- The selection between the strided rows and the last row, at an entry. -/
private theorem sel_apply (i : grid0.Coords) (xA : Vec Ideal S1x128x1x32x128 .f32) (xL : Vec Ideal S1x32x128 .f32)
    (A B : FVec Ideal S128x32x128 .bf16) (r : Fin 128) (g : Fin 32) (d : Fin 128)
    (hA : A (ix3 r g d) = xA (ix5 (0 : Fin 1) r (0 : Fin 1) g d)) (hB : B (ix3 r g d) = xL (ix3 (0 : Fin 1) g d)) :
    (Scalar.select (Scalar.cmpi .slt (BitVec.ofNat 32 (i 1).val) 16#32) A B : FVec Ideal S128x32x128 .bf16) (ix3 r g d)
      = effRows i xA xL r g d := by
  unfold effRows
  by_cases h : (i 1).val < 16
  · rw [cond_one _ h, select_one, if_pos h]; exact hA
  · have hc := cond_not_one (i 1).val (by omega) (coord1_lt i)
    rw [eq_zero_of_ne_one hc, select_zero, if_neg h]; exact hB

/-- The selected rows, read at an entry. -/
theorem pay2_apply (i : grid0.Coords) (v8 : Vec Ideal S1x128x1x32x128 .f32) (v15 : Vec Ideal S1x32x128 .f32)
    (r : Fin 128) (g : Fin 32) (e : Fin 128) :
    k0_pay2 (F := Ideal) i v8 v15 (ix3 r g e) = effRows i v8 v15 r g e :=
  sel_apply i v8 v15 _ _ r g e (strided_apply v8 r g e) (lastRow_apply v15 r g e)

/-- The query block re-laid [1,128,32,128] → [128,32,128] and narrowed: entry (r, h, d). -/
private theorem query_apply (x : Vec Ideal S1x128x32x128 .f32) (r : Fin 128) (h : Fin 32) (d : Fin 128) :
    (truncf .bf16 (shapeCast S128x32x128 x shapeCasts_S1x128x32x128_S128x32x128) bitsLt_bf16_f32
      : FVec Ideal S128x32x128 .bf16) (ix3 r h d) = x (ix4 (0 : Fin 1) r h d) := by
  refine (truncf_apply (φ := .f32) (ψ := .bf16) _ bitsLt_bf16_f32 (ix3 r h d)).trans ?_
  refine (shapeCast_apply _ _ (ix3 r h d) (ix4 (0 : Fin 1) r h d) ?_)
  rw [Shape.rowMajor_val_three, Shape.rowMajor_val_four]
  show ((0 * 128 + r.val) * 32 + h.val) * 128 + d.val = (r.val * 32 + h.val) * 128 + d.val
  omega

/-- The dimension numbers of the score product: batch axis 0, contraction axis 2 of both operands. -/
private abbrev DS := dot_S128x32x128_S128x32x128_S128x32x32_2_2_1_1_0_0

private theorem lhs_0 (j : S128x32x32.Idx) (q : DS.contr.Idx) : (DS.lhsIdx j q 0).val = (j 0).val := by
  unfold DotDims.lhsIdx
  rw [dif_pos (show (0 : Fin S128x32x128.rank) ∈ DS.lhsBatch by decide)]
  rfl
private theorem lhs_1 (j : S128x32x32.Idx) (q : DS.contr.Idx) : (DS.lhsIdx j q 1).val = (j 1).val := by
  unfold DotDims.lhsIdx
  rw [dif_neg (show ¬(1 : Fin S128x32x128.rank) ∈ DS.lhsBatch by decide),
    dif_pos (show (1 : Fin S128x32x128.rank) ∈ DS.lhsNonContracting by decide)]
  rfl
private theorem lhs_2 (j : S128x32x32.Idx) (q : DS.contr.Idx) : (DS.lhsIdx j q 2).val = (q ⟨0, by decide⟩).val :=
  DS.lhsIdx_val_of_single rfl j q
private theorem rhs_0 (j : S128x32x32.Idx) (q : DS.contr.Idx) : (DS.rhsIdx j q 0).val = (j 0).val := by
  unfold DotDims.rhsIdx
  rw [dif_pos (show (0 : Fin S128x32x128.rank) ∈ DS.rhsBatch by decide)]
  rfl
private theorem rhs_1 (j : S128x32x32.Idx) (q : DS.contr.Idx) : (DS.rhsIdx j q 1).val = (j 2).val := by
  unfold DotDims.rhsIdx
  rw [dif_neg (show ¬(1 : Fin S128x32x128.rank) ∈ DS.rhsBatch by decide),
    dif_pos (show (1 : Fin S128x32x128.rank) ∈ DS.rhsNonContracting by decide)]
  rfl
private theorem rhs_2 (j : S128x32x32.Idx) (q : DS.contr.Idx) : (DS.rhsIdx j q 2).val = (q ⟨0, by decide⟩).val :=
  DS.rhsIdx_val_of_single rfl j q

/-- The batched product into a zero accumulator, at (r, h, g): the sum over the features of the products of the
    left operand's row (r, h) and the right operand's row (r, g). -/
private theorem scores_apply (A B : FVec Ideal S128x32x128 .bf16) (r : Fin 128) (h g : Fin 32) :
    (matmul DS none A B (constant (F := Ideal) S128x32x32 .f32 0x00000000#32) : FVec Ideal S128x32x32 .f32) (ix3 r h g)
      = ∑ d : Fin 128, A (ix3 r h d) * B (ix3 r g d) := by
  simp only [matmul]
  rw [Ideal.matmul_constant_zero_apply, ← Equiv.sum_comp (contrEquiv1 DS 128 rfl rfl).symm]
  refine Finset.sum_congr rfl fun k _ => ?_
  have hk := contrEquiv1_symm_val DS 128 rfl rfl k
  have el : DS.lhsIdx (ix3 r h g) ((contrEquiv1 DS 128 rfl rfl).symm k) = ix3 r h k := funext fun a => Fin.ext (by
    match a with
    | ⟨0, _⟩ => exact lhs_0 _ _
    | ⟨1, _⟩ => exact lhs_1 _ _
    | ⟨2, _⟩ => exact (lhs_2 _ _).trans hk)
  have er : DS.rhsIdx (ix3 r h g) ((contrEquiv1 DS 128 rfl rfl).symm k) = ix3 r g k := funext fun a => Fin.ext (by
    match a with
    | ⟨0, _⟩ => exact rhs_0 _ _
    | ⟨1, _⟩ => exact rhs_1 _ _
    | ⟨2, _⟩ => exact (rhs_2 _ _).trans hk)
  rw [el, er]

/-- The row maximum over the last axis, folded from the word of minus infinity, at (r, h). -/
private theorem rowmax_apply (src : FVec Ideal S128x32x32 .f32) (hφ : FKind.Formats .f32)
    (hacc : (0xFF800000#32 : BitVec 32) = 0xFF800000#32) (r : Fin 128) (h : Fin 32) :
    (multiReduction .maximumf [2] S128x32 src 0xFF800000#32 reduces_S128x32x32_S128x32 hφ hacc
      : FVec Ideal S128x32 .f32) (ix2 r h)
      = (Finset.univ : Finset (Fin 32)).fold max negInf (fun g => src (ix3 r h g)) := by
  refine (Ideal.multiReduction_maximumf_single src 0xFF800000#32 reduces_S128x32x32_S128x32 hφ hacc (ix2 r h)).trans ?_
  show (Finset.univ : Finset (Fin 32)).fold max negInf (src ∘ reduces_S128x32x32_S128x32.lift (ix2 r h)) = _
  refine congrArg (fun f => (Finset.univ : Finset (Fin 32)).fold max negInf f) (funext fun g => ?_)
  show src (reduces_S128x32x32_S128x32.lift (ix2 r h) g) = src (ix3 r h g)
  refine congrArg src (funext fun a => Fin.ext ?_)
  match a with
  | ⟨0, _⟩ => rfl
  | ⟨1, _⟩ => rfl
  | ⟨2, _⟩ => rfl

/-- A [128,32] array re-laid as a column [128,32,1] and broadcast along a last axis of 32: entry (r, h, g) is the
    array's entry (r, h). -/
private theorem column_apply (x : FVec Ideal S128x32 .f32) (r : Fin 128) (h g : Fin 32) :
    (broadcastTo S128x32x32 (shapeCast S128x32x1 x shapeCasts_S128x32_S128x32x1) broadcasts_S128x32x1_S128x32x32
      : FVec Ideal S128x32x32 .f32) (ix3 r h g) = x (ix2 r h) := by
  refine (broadcastTo_apply _ _ (ix3 r h g) (ix3 r h (0 : Fin 1)) ?_).trans ?_
  · intro a
    match a with
    | ⟨0, _⟩ => rfl
    | ⟨1, _⟩ => rfl
    | ⟨2, _⟩ => rfl
  refine (shapeCast_apply _ _ (ix3 r h (0 : Fin 1)) (ix2 r h) ?_)
  rw [Shape.rowMajor_val_two, Shape.rowMajor_val_three]
  show r.val * 32 + h.val = (r.val * 32 + h.val) * 1 + 0
  omega

/-- From the two [128,32,128] operands to the exponentials: the scaled batched product, less its row maximum,
    exponentiated. Where the left operand's block row `r` is `Q` and the right operand's is `K`, entry (r, h, g) is
    the exponential of the score of query head `h` against key head `g` less that head's largest score. -/
private theorem tail_apply (A B : FVec Ideal S128x32x128 .bf16) (Q K : Fin 32 → Fin 128 → EReal) (r : Fin 128) (h g : Fin 32)
    (hφ : FKind.Formats .f32) (hacc : (0xFF800000#32 : BitVec 32) = 0xFF800000#32)
    (hA : ∀ h' d, A (ix3 r h' d) = Q h' d) (hB : ∀ g' d, B (ix3 r g' d) = K g' d) :
    (exp (subf
        (mulf (matmul DS none A B (constant (F := Ideal) S128x32x32 .f32 0x00000000#32))
          (broadcast S128x32x32 (Scalar.ofBits (F := Ideal) .f32 0x3DB504F3#32)))
        (broadcastTo S128x32x32 (shapeCast S128x32x1
          (multiReduction .maximumf [2] S128x32
            (mulf (matmul DS none A B (constant (F := Ideal) S128x32x32 .f32 0x00000000#32))
              (broadcast S128x32x32 (Scalar.ofBits (F := Ideal) .f32 0x3DB504F3#32)))
            0xFF800000#32 reduces_S128x32x32_S128x32 hφ hacc)
          shapeCasts_S128x32_S128x32x1) broadcasts_S128x32x1_S128x32x32))
      : FVec Ideal S128x32x32 .f32) (ix3 r h g) = ex Q K h g := by
  -- the scaled product at an entry is the score
  have hs : ∀ g' : Fin 32,
      (mulf (matmul DS none A B (constant (F := Ideal) S128x32x32 .f32 0x00000000#32))
        (broadcast S128x32x32 (Scalar.ofBits (F := Ideal) .f32 0x3DB504F3#32)) : FVec Ideal S128x32x32 .f32) (ix3 r h g')
        = score Q K h g' := fun g' => by
    refine (mulf_apply _ _ _).trans ?_
    rw [scores_apply A B r h g']
    show (∑ d : Fin 128, A (ix3 r h d) * B (ix3 r g' d)) * scale = (∑ d : Fin 128, Q h d * K g' d) * scale
    refine congrArg (· * scale) (Finset.sum_congr rfl fun d _ => ?_)
    rw [hA h d, hB g' d]
  show Ideal.exp (_ - _) = Ideal.exp (score Q K h g - rowMax Q K h)
  refine congrArg Ideal.exp ?_
  refine congrArg₂ (· - ·) (hs g) ?_
  refine (column_apply _ r h g).trans ?_
  refine (rowmax_apply _ hφ hacc r h).trans ?_
  show _ = (Finset.univ : Finset (Fin 32)).fold max negInf (fun g' => score Q K h g')
  exact congrArg (fun f => (Finset.univ : Finset (Fin 32)).fold max negInf f) (funext hs)

/-- The exponentials: at block row `r`, query head `h`, key head `g`. -/
theorem pay3_apply (i : grid0.Coords) (v1 : Vec Ideal S1x128x32x128 .f32) (v4 : Vec Ideal S1x128x1x32x128 .f32)
    (v12 : Vec Ideal S1x32x128 .f32) (r : Fin 128) (h g : Fin 32) :
    k0_pay3 (F := Ideal) i v1 v4 v12 (ix3 r h g)
      = ex (fun i' d => v1 (ix4 (0 : Fin 1) r i' d)) (effRows i v4 v12 r) h g :=
  tail_apply _ _ _ _ r h g _ _ (fun h' d => query_apply v1 r h' d)
    (fun g' d => sel_apply i v4 v12 _ _ r g' d (strided_apply v4 r g' d) (lastRow_apply v12 r g' d))

end Cert.KernelIdeal.Payload

end
-- ==== Proof.Pay1.lean ====
/-
  The second half of the block body at one entry: the exponentials normalised by their row sum, applied to the value rows.
-/
import proofs.«116964_j51531017617692_2_alg».proof.Proof.Gen.KernelIdeal.Skeleton
import proofs.«116964_j51531017617692_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.DilatedAttn Idealize.ShloMosaic Idealize.ShloMosaic.ValueIdx

/-! ## The batched product's operand indices

The product has batch axis 0 on both operands, contracts axis 2 of the left operand with axis 1 of the right one, and
keeps axis 1 of the left and axis 2 of the right: at output index `(r, h, e)` and summation coordinate `g` the left
operand is read at `(r, h, g)` and the right one at `(r, g, e)`. One lemma per operand axis. -/

/-- Left operand index of the batched product, axis 0 (the batch axis): the output's row. -/
private theorem lhs_0 (i : S128x32x128.Idx) (q : dot_S128x32x32_S128x32x128_S128x32x128_2_1_1_2_0_0.contr.Idx) :
    (dot_S128x32x32_S128x32x128_S128x32x128_2_1_1_2_0_0.lhsIdx i q 0).val = (i 0).val := by
  unfold DotDims.lhsIdx
  rw [dif_pos (show (0 : Fin S128x32x32.rank) ∈ dot_S128x32x32_S128x32x128_S128x32x128_2_1_1_2_0_0.lhsBatch by decide)]
  rfl
/-- Left operand index, axis 1 (the free axis): the output's head. -/
private theorem lhs_1 (i : S128x32x128.Idx) (q : dot_S128x32x32_S128x32x128_S128x32x128_2_1_1_2_0_0.contr.Idx) :
    (dot_S128x32x32_S128x32x128_S128x32x128_2_1_1_2_0_0.lhsIdx i q 1).val = (i 1).val := by
  unfold DotDims.lhsIdx
  rw [dif_neg (show ¬(1 : Fin S128x32x32.rank) ∈ dot_S128x32x32_S128x32x128_S128x32x128_2_1_1_2_0_0.lhsBatch by decide), dif_pos (show (1 : Fin S128x32x32.rank) ∈ dot_S128x32x32_S128x32x128_S128x32x128_2_1_1_2_0_0.lhsNonContracting by decide)]
  rfl
/-- Left operand index, axis 2 (the contracted axis): the summation coordinate. -/
private theorem lhs_2 (i : S128x32x128.Idx) (q : dot_S128x32x32_S128x32x128_S128x32x128_2_1_1_2_0_0.contr.Idx) :
    (dot_S128x32x32_S128x32x128_S128x32x128_2_1_1_2_0_0.lhsIdx i q 2).val = (q ⟨0, by decide⟩).val :=
  dot_S128x32x32_S128x32x128_S128x32x128_2_1_1_2_0_0.lhsIdx_val_of_single rfl i q
/-- Right operand index, axis 0 (the batch axis): the output's row. -/
private theorem rhs_0 (i : S128x32x128.Idx) (q : dot_S128x32x32_S128x32x128_S128x32x128_2_1_1_2_0_0.contr.Idx) :
    (dot_S128x32x32_S128x32x128_S128x32x128_2_1_1_2_0_0.rhsIdx i q 0).val = (i 0).val := by
  unfold DotDims.rhsIdx
  rw [dif_pos (show (0 : Fin S128x32x128.rank) ∈ dot_S128x32x32_S128x32x128_S128x32x128_2_1_1_2_0_0.rhsBatch by decide)]
  rfl
/-- Right operand index, axis 1 (the contracted axis): the summation coordinate. -/
private theorem rhs_1 (i : S128x32x128.Idx) (q : dot_S128x32x32_S128x32x128_S128x32x128_2_1_1_2_0_0.contr.Idx) :
    (dot_S128x32x32_S128x32x128_S128x32x128_2_1_1_2_0_0.rhsIdx i q 1).val = (q ⟨0, by decide⟩).val :=
  dot_S128x32x32_S128x32x128_S128x32x128_2_1_1_2_0_0.rhsIdx_val_of_single rfl i q
/-- Right operand index, axis 2 (the free axis): the output's feature. -/
private theorem rhs_2 (i : S128x32x128.Idx) (q : dot_S128x32x32_S128x32x128_S128x32x128_2_1_1_2_0_0.contr.Idx) :
    (dot_S128x32x32_S128x32x128_S128x32x128_2_1_1_2_0_0.rhsIdx i q 2).val = (i 2).val := by
  unfold DotDims.rhsIdx
  rw [dif_neg (show ¬(2 : Fin S128x32x128.rank) ∈ dot_S128x32x32_S128x32x128_S128x32x128_2_1_1_2_0_0.rhsBatch by decide), dif_pos (show (2 : Fin S128x32x128.rank) ∈ dot_S128x32x32_S128x32x128_S128x32x128_2_1_1_2_0_0.rhsNonContracting by decide)]
  rfl

/-- The stored value at block row `r`, head `h`, feature `e`: the sum over the key heads of the exponential over
    its row's sum, times the value row's entry. -/
theorem pay1_apply (v25 : FVec Ideal S128x32x128 .bf16) (v33 : FVec Ideal S128x32x32 .f32) (r : Fin 128) (h : Fin 32) (e : Fin 128) :
    k0_pay1 (F := Ideal) v25 v33 (ix4 (0 : Fin 1) r h e)
      = ∑ g : Fin 32, Ideal.div (v33 (ix3 r h g)) (∑ g' : Fin 32, v33 (ix3 r h g')) * v25 (ix3 r g e) := by
  unfold k0_pay1
  -- the added leading unit axis: entry (0, r, h, e) of the result is entry (r, h, e) of the product
  refine (shapeCast_abc_1abc_apply _ _ (0 : Fin 1) r h e).trans ?_
  -- the product into a zero accumulator is the sum over the contraction index of the operands' products …
  refine (Ideal.matmul_constant_zero_apply dot_S128x32x32_S128x32x128_S128x32x128_2_1_1_2_0_0 none _ v25 (ix3 r h e)).trans ?_
  -- … re-indexed by the contraction's one coordinate g
  rw [← Equiv.sum_comp (contrEquiv1 dot_S128x32x32_S128x32x128_S128x32x128_2_1_1_2_0_0 32 rfl rfl).symm]
  refine Finset.sum_congr rfl fun g _ => ?_
  have hg := contrEquiv1_symm_val dot_S128x32x32_S128x32x128_S128x32x128_2_1_1_2_0_0 32 rfl rfl g
  -- the left operand is read at (r, h, g) …
  have el : dot_S128x32x32_S128x32x128_S128x32x128_2_1_1_2_0_0.lhsIdx (ix3 r h e) ((contrEquiv1 dot_S128x32x32_S128x32x128_S128x32x128_2_1_1_2_0_0 32 rfl rfl).symm g) = ix3 r h g := funext fun a => Fin.ext (by
    match a with
    | ⟨0, _⟩ => exact lhs_0 _ _
    | ⟨1, _⟩ => exact lhs_1 _ _
    | ⟨2, _⟩ => exact (lhs_2 _ _).trans hg)
  -- … and the right one at (r, g, e)
  have er : dot_S128x32x32_S128x32x128_S128x32x128_2_1_1_2_0_0.rhsIdx (ix3 r h e) ((contrEquiv1 dot_S128x32x32_S128x32x128_S128x32x128_2_1_1_2_0_0 32 rfl rfl).symm g) = ix3 r g e := funext fun a => Fin.ext (by
    match a with
    | ⟨0, _⟩ => exact rhs_0 _ _
    | ⟨1, _⟩ => exact (rhs_1 _ _).trans hg
    | ⟨2, _⟩ => exact rhs_2 _ _)
  rw [el, er]
  refine congrArg (· * v25 (ix3 r g e)) ?_
  -- the left factor: the format change is the identity and the quotient is taken entrywise
  show Ideal.div (v33 (ix3 r h g)) _ = _
  refine congrArg (Ideal.div (v33 (ix3 r h g))) ?_
  -- the divisor: the broadcast along the last axis reads the column entry (r, h, 0) …
  refine (broadcastTo_apply _ broadcasts_S128x32x1_S128x32x32 (ix3 r h g) (ix3 r h (0 : Fin 1)) (fun a => match a with
    | ⟨0, _⟩ => by show r.val = if (128 : Nat) = 1 then 0 else r.val; rw [if_neg (by decide)]
    | ⟨1, _⟩ => by show h.val = if (32 : Nat) = 1 then 0 else h.val; rw [if_neg (by decide)]
    | ⟨2, _⟩ => by show 0 = if (1 : Nat) = 1 then 0 else g.val; rw [if_pos rfl])).trans ?_
  -- … which is entry (r, h) of the row sums (same row-major position) …
  refine (shapeCast_apply _ shapeCasts_S128x32_S128x32x1 (ix3 r h (0 : Fin 1)) (ix2 r h) (by
    rw [Shape.rowMajor_val_two, Shape.rowMajor_val_three]
    show r.val * 32 + h.val = (r.val * 32 + h.val) * 1 + 0
    omega)).trans ?_
  -- … and the sum over the last axis from zero is the sum over its coordinate g' of the entries (r, h, g')
  refine (Ideal.multiReduction_add_single v33 0x00000000#32 reduces_S128x32x32_S128x32 _ _ (ix2 r h)).trans ?_
  refine Finset.sum_congr rfl fun g' _ => congrArg v33 (funext fun a => Fin.ext ?_)
  match a with
  | ⟨0, _⟩ => rfl
  | ⟨1, _⟩ => rfl
  | ⟨2, _⟩ => rfl

end Cert.KernelIdeal.Payload

end
-- ==== Proof.KernelPayload.lean ====
/-
  What the block body leaves in the output block, at one entry: attention over the heads of the block row's query,
  key and value rows. The body's one store covers the whole block, so the block holds the stored value; the stored
  value is the normalised exponentials applied to the selected value rows, and the exponentials are those of the
  selected key rows' scores.
-/
import proofs.«116964_j51531017617692_2_alg».proof.Proof.FrameKernelIdeal
import proofs.«116964_j51531017617692_2_alg».proof.Proof.Pay23
import proofs.«116964_j51531017617692_2_alg».proof.Proof.Pay1

noncomputable section

namespace Cert.KernelIdeal.Payload

open Cert.KernelIdeal Cert.KernelIdeal.Gen Cert.DilatedAttn Idealize.ShloMosaic Idealize.ShloMosaic.ValueIdx

theorem zero4 : (![0, 0, 0, 0] : Fin 4 → Nat) = fun _ => 0 := funext fun a => by fin_cases a <;> rfl
theorem zero5 : (![0, 0, 0, 0, 0] : Fin 5 → Nat) = fun _ => 0 := funext fun a => by fin_cases a <;> rfl
theorem zero3 : (![0, 0, 0] : Fin 3 → Nat) = fun _ => 0 := funext fun a => by fin_cases a <;> rfl

theorem out0_5_apply (i : grid0.Coords) (x0 : Vec Ideal S1x128x32x128 .f32) (x1 x2 : Vec Ideal S1x128x1x32x128 .f32)
    (x3 x4 : Vec Ideal S1x32x128 .f32) (r : Fin 128) (h : Fin 32) (e : Fin 128) :
    Cert.KernelIdeal.GenP.out0_5 (F := Ideal) i x0 x1 x2 x3 x4 (ix4 (0 : Fin 1) r h e)
      = attnAt (fun i' d => x0 (ix4 (0 : Fin 1) r i' d)) (effRows i x1 x3 r) (effRows i x2 x4 r) h e := by
  unfold Cert.KernelIdeal.GenP.out0_5
  rw [View.canon_unit_zero zero4]
  simp only [View.ld_unit_zero (S := S1x128x32x128) zero4, View.ld_unit_zero (S := S1x128x1x32x128) zero5,
    View.ld_unit_zero (S := S1x32x128) zero3]
  rw [pay1_apply]
  unfold attnAt den
  refine Finset.sum_congr rfl fun g _ => ?_
  rw [pay3_apply, pay2_apply]
  refine congrArg (fun z => Ideal.div _ z * _) (Finset.sum_congr rfl fun g' _ => ?_)
  rw [pay3_apply]

end Cert.KernelIdeal.Payload

end
-- ==== Proof.KernelArrays.lean ====
/-
  The arrays the kernel's windows read, as the region finds them, in terms of the argument arrays: the keys and the
  values re-laid as [2, 2048, 4, 32, 128] (position 4n+s at (n, s)), and the last key row and the last value row
  of each batch as [2, 32, 128]. A reshape keeps the row-major position of an entry; the slice takes row 8191.
-/
import proofs.«116964_j51531017617692_2_alg».proof.Proof.FrameKernelIdeal
import proofs.«116964_j51531017617692_2_alg».proof.Proof.Spec
import Idealize.ShloMosaic.Lib.ValueIdx
import Idealize.ShloMosaic.Lib.Pipeline.Value
import Idealize.ShloMosaic.Lib.StableHlo.Run

noncomputable section

namespace Cert.KernelIdeal.Arrays

open Cert.KernelIdeal Cert.KernelIdeal.Gen Cert.KernelIdeal.GenP Cert.DilatedAttn
open Idealize.ShloMosaic Idealize.ShloMosaic.TcCoe Idealize.ShloMosaic.ValueIdx Idealize.SL.Sem Idealize.ShloMosaic.StableHlo

variable (m : (ℓ : Loc nD τ sig) → Buf (Elt Ideal) ℓ)

/-- A [2,8192,32,128] array re-laid as [2,2048,4,32,128], read at an entry. -/
theorem relaid_apply (x : S2x8192x32x128.Idx → EReal) (b : Fin 2) (n : Fin 2048) (s : Fin 4) (g : Fin 32) (d : Fin 128) :
    shapeCast S2x2048x4x32x128 x shapeCasts_S2x8192x32x128_S2x2048x4x32x128 (ix5 b n s g d)
      = x (ix4 b ⟨4 * n.val + s.val, by omega⟩ g d) :=
  shapeCast_apply x shapeCasts_S2x8192x32x128_S2x2048x4x32x128 (ix5 b n s g d) (ix4 b ⟨4 * n.val + s.val, by omega⟩ g d) (by
    rw [Shape.rowMajor_val_four, Shape.rowMajor_val_five]
    show ((b.val * 8192 + (4 * n.val + s.val)) * 32 + g.val) * 128 + d.val
      = (((b.val * 2048 + n.val) * 4 + s.val) * 32 + g.val) * 128 + d.val
    omega)

/-- Row 8191 of a [2,8192,32,128] array, sliced out and re-laid as [2,32,128], read at an entry. -/
theorem lastRow_apply (x : S2x8192x32x128.Idx → EReal) (b : Fin 2) (g : Fin 32) (d : Fin 128) :
    shapeCast S2x32x128 (extractStridedSlice S2x1x32x128 ![0, 8191, 0, 0] x slices_S2x8192x32x128_S2x1x32x128_0_8191_0_0)
        shapeCasts_S2x1x32x128_S2x32x128 (ix3 b g d)
      = x (ix4 b ⟨8191, by omega⟩ g d) := by
  refine (shapeCast_apply _ shapeCasts_S2x1x32x128_S2x32x128 (ix3 b g d) (ix4 b (0 : Fin 1) g d) (by
    rw [Shape.rowMajor_val_four, Shape.rowMajor_val_three]
    show ((b.val * 1 + 0) * 32 + g.val) * 128 + d.val = (b.val * 32 + g.val) * 128 + d.val
    omega)).trans ?_
  exact extractStridedSlice_apply ![0, 8191, 0, 0] x slices_S2x8192x32x128_S2x1x32x128_0_8191_0_0 (ix4 b (0 : Fin 1) g d)
    (ix4 b ⟨8191, by omega⟩ g d) (fun a => by
      match a with
      | ⟨0, _⟩ => show b.val = 0 + b.val; omega
      | ⟨1, _⟩ => show 8191 = 8191 + 0; rfl
      | ⟨2, _⟩ => show g.val = 0 + g.val; omega
      | ⟨3, _⟩ => show d.val = 0 + d.val; omega)

/-- The keys re-laid: entry (b, n, s, g, d) is the key at position 4n+s. -/
theorem V_v0_apply (c : Dev nD) (b : Fin 2) (n : Fin 2048) (s : Fin 4) (g : Fin 32) (d : Fin 128) :
    (V m c main_v0 : S2x2048x4x32x128.Idx → EReal) (ix5 b n s g d)
      = (m ((c.tc : Thread nD τ).loc main_arg1) : S2x8192x32x128.Idx → EReal) (ix4 b ⟨4 * n.val + s.val, by omega⟩ g d) := by
  have e : (V m c main_v0 : S2x2048x4x32x128.Idx → EReal)
      = shapeCast S2x2048x4x32x128 (m ((c.tc : Thread nD τ).loc main_arg1) : S2x8192x32x128.Idx → EReal)
          shapeCasts_S2x8192x32x128_S2x2048x4x32x128 := by
    dsimp only [V, hostOps0]; after_results; rfl
  rw [e]
  exact relaid_apply _ b n s g d

/-- The values re-laid likewise. -/
theorem V_v1_apply (c : Dev nD) (b : Fin 2) (n : Fin 2048) (s : Fin 4) (g : Fin 32) (d : Fin 128) :
    (V m c main_v1 : S2x2048x4x32x128.Idx → EReal) (ix5 b n s g d)
      = (m ((c.tc : Thread nD τ).loc main_arg2) : S2x8192x32x128.Idx → EReal) (ix4 b ⟨4 * n.val + s.val, by omega⟩ g d) := by
  have e : (V m c main_v1 : S2x2048x4x32x128.Idx → EReal)
      = shapeCast S2x2048x4x32x128 (m ((c.tc : Thread nD τ).loc main_arg2) : S2x8192x32x128.Idx → EReal)
          shapeCasts_S2x8192x32x128_S2x2048x4x32x128 := by
    dsimp only [V, hostOps0]; after_results; rfl
  rw [e]
  exact relaid_apply _ b n s g d

/-- The last key row of each batch. -/
theorem V_v3_apply (c : Dev nD) (b : Fin 2) (g : Fin 32) (d : Fin 128) :
    (V m c main_v3 : S2x32x128.Idx → EReal) (ix3 b g d)
      = (m ((c.tc : Thread nD τ).loc main_arg1) : S2x8192x32x128.Idx → EReal) (ix4 b ⟨8191, by omega⟩ g d) := by
  have e : (V m c main_v3 : S2x32x128.Idx → EReal)
      = shapeCast S2x32x128 (extractStridedSlice S2x1x32x128 ![0, 8191, 0, 0]
          (m ((c.tc : Thread nD τ).loc main_arg1) : S2x8192x32x128.Idx → EReal) slices_S2x8192x32x128_S2x1x32x128_0_8191_0_0)
          shapeCasts_S2x1x32x128_S2x32x128 := by
    dsimp only [V, hostOps0]; after_results; rfl
  rw [e]
  exact lastRow_apply _ b g d

/-- The last value row of each batch. -/
theorem V_v5_apply (c : Dev nD) (b : Fin 2) (g : Fin 32) (d : Fin 128) :
    (V m c main_v5 : S2x32x128.Idx → EReal) (ix3 b g d)
      = (m ((c.tc : Thread nD τ).loc main_arg2) : S2x8192x32x128.Idx → EReal) (ix4 b ⟨8191, by omega⟩ g d) := by
  have e : (V m c main_v5 : S2x32x128.Idx → EReal)
      = shapeCast S2x32x128 (extractStridedSlice S2x1x32x128 ![0, 8191, 0, 0]
          (m ((c.tc : Thread nD τ).loc main_arg2) : S2x8192x32x128.Idx → EReal) slices_S2x8192x32x128_S2x1x32x128_0_8191_0_0)
          shapeCasts_S2x1x32x128_S2x32x128 := by
    dsimp only [V, hostOps0]; after_results; rfl
  rw [e]
  exact lastRow_apply _ b g d

end Cert.KernelIdeal.Arrays

end
-- ==== Proof.KernelValue.lean ====
/-
  The kernel's result array after the run is `G` of the argument arrays: every output block is the block of `G`, and
  the blocks cover the array.
-/
import proofs.«116964_j51531017617692_2_alg».proof.Proof.FrameKernelIdeal
import proofs.«116964_j51531017617692_2_alg».proof.Proof.KernelPayload
import proofs.«116964_j51531017617692_2_alg».proof.Proof.KernelArrays
import proofs.«116964_j51531017617692_2_alg».proof.Proof.Spec
import Idealize.ShloMosaic.Lib.ValueIdx
import Idealize.ShloMosaic.Lib.Pipeline.Value

noncomputable section

namespace Cert.KernelIdeal.KValue

open Cert.KernelIdeal Cert.KernelIdeal.Gen Cert.KernelIdeal.GenP Cert.DilatedAttn
open Idealize.ShloMosaic Idealize.ShloMosaic.TcCoe Idealize.ShloMosaic.ValueIdx Idealize.SL.Sem

/-- The printed index maps and the grid's coordinates, decided once over the 128 grid points: point `t` has batch
    `t / 64` and position tile `t % 64`; the query and result blocks sit at (batch, tile), the strided key and value
    blocks at (batch, min tile 15), the last-row blocks at the batch. -/
theorem idx_facts : ∀ t : Fin cfg0.N,
    (grid0.coords t 0).val = t.val / 64 ∧ (grid0.coords t 1).val = t.val % 64
    ∧ win0_0.index t (0 : Fin 4) = t.val / 64 ∧ win0_0.index t (1 : Fin 4) = t.val % 64
    ∧ win0_0.index t (2 : Fin 4) = 0 ∧ win0_0.index t (3 : Fin 4) = 0
    ∧ win0_1.index t (0 : Fin 5) = t.val / 64 ∧ win0_1.index t (1 : Fin 5) = min (t.val % 64) 15
    ∧ win0_1.index t (2 : Fin 5) = 0 ∧ win0_1.index t (3 : Fin 5) = 0 ∧ win0_1.index t (4 : Fin 5) = 0
    ∧ win0_2.index t (0 : Fin 5) = t.val / 64 ∧ win0_2.index t (1 : Fin 5) = min (t.val % 64) 15
    ∧ win0_2.index t (2 : Fin 5) = 0 ∧ win0_2.index t (3 : Fin 5) = 0 ∧ win0_2.index t (4 : Fin 5) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0
    ∧ win0_5.index t (0 : Fin 4) = t.val / 64 ∧ win0_5.index t (1 : Fin 4) = t.val % 64
    ∧ win0_5.index t (2 : Fin 4) = 0 ∧ win0_5.index t (3 : Fin 4) = 0 :=
  (by decide +kernel : ∀ t : Fin grid0.N, _)

variable (m : (ℓ : Loc nD τ sig) → Buf (Elt Ideal) ℓ) (ρ : Dev nD → PrngReg)

/-- The query block at point `t`, read at block row `r`: the queries of batch `b` at position `p`. -/
theorem blk0_read (c : Dev nD) (t : Fin cfg0.N) (b : Fin 2) (p : Fin 8192) (r : Fin 128) (h : Fin 32) (d : Fin 128)
    (hb : b.val = t.val / 64) (hp : p.val = 128 * (t.val % 64) + r.val) :
    (iblk m c 0 t : Vec Ideal S1x128x32x128 .f32) (ix4 (0 : Fin 1) r h d)
      = (V m c main_arg0 : S2x8192x32x128.Idx → EReal) (ix4 b p h d) := by
  show V m c main_arg0 (((cfg0.win 0).blk t).view.emb (ix4 (0 : Fin 1) r h d)) = V m c main_arg0 (ix4 b p h d)
  refine congrArg (V m c main_arg0) (funext fun a => Fin.ext ?_)
  obtain ⟨-, -, e0, e1, e2, e3, -⟩ := idx_facts t
  match a with
  | ⟨0, _⟩ => show win0_0.index t (0 : Fin 4) * 1 + 1 * (0 : Fin 1).val = b.val; rw [e0, hb]; show _ * 1 + 1 * 0 = _; omega
  | ⟨1, _⟩ => show win0_0.index t (1 : Fin 4) * 128 + 1 * r.val = p.val; rw [e1, hp]; omega
  | ⟨2, _⟩ => show win0_0.index t (2 : Fin 4) * 32 + 1 * h.val = h.val; rw [e2]; omega
  | ⟨3, _⟩ => show win0_0.index t (3 : Fin 4) * 128 + 1 * d.val = d.val; rw [e3]; omega

/-- The strided key block at point `t`, read at block row `r` and unit coordinate 0: the re-laid keys of batch `b`
    at row `n`, stride coordinate 0. -/
theorem blk1_read (c : Dev nD) (t : Fin cfg0.N) (b : Fin 2) (n : Fin 2048) (r : Fin 128) (g : Fin 32) (d : Fin 128)
    (hb : b.val = t.val / 64) (hn : n.val = 128 * min (t.val % 64) 15 + r.val) :
    (iblk m c 1 t : Vec Ideal S1x128x1x32x128 .f32) (ix5 (0 : Fin 1) r (0 : Fin 1) g d)
      = (V m c main_v0 : S2x2048x4x32x128.Idx → EReal) (ix5 b n (0 : Fin 4) g d) := by
  show V m c main_v0 (((cfg0.win 1).blk t).view.emb (ix5 (0 : Fin 1) r (0 : Fin 1) g d)) = V m c main_v0 (ix5 b n (0 : Fin 4) g d)
  refine congrArg (V m c main_v0) (funext fun a => Fin.ext ?_)
  obtain ⟨-, -, -, -, -, -, e0, e1, e2, e3, e4, -⟩ := idx_facts t
  match a with
  | ⟨0, _⟩ => show win0_1.index t (0 : Fin 5) * 1 + 1 * (0 : Fin 1).val = b.val; rw [e0, hb]; show _ * 1 + 1 * 0 = _; omega
  | ⟨1, _⟩ => show win0_1.index t (1 : Fin 5) * 128 + 1 * r.val = n.val; rw [e1, hn]; omega
  | ⟨2, _⟩ => show win0_1.index t (2 : Fin 5) * 1 + 1 * (0 : Fin 1).val = (0 : Fin 4).val; rw [e2]; show 0 * 1 + 1 * 0 = 0; omega
  | ⟨3, _⟩ => show win0_1.index t (3 : Fin 5) * 32 + 1 * g.val = g.val; rw [e3]; omega
  | ⟨4, _⟩ => show win0_1.index t (4 : Fin 5) * 128 + 1 * d.val = d.val; rw [e4]; omega

/-- The strided value block likewise. -/
theorem blk2_read (c : Dev nD) (t : Fin cfg0.N) (b : Fin 2) (n : Fin 2048) (r : Fin 128) (g : Fin 32) (d : Fin 128)
    (hb : b.val = t.val / 64) (hn : n.val = 128 * min (t.val % 64) 15 + r.val) :
    (iblk m c 2 t : Vec Ideal S1x128x1x32x128 .f32) (ix5 (0 : Fin 1) r (0 : Fin 1) g d)
      = (V m c main_v1 : S2x2048x4x32x128.Idx → EReal) (ix5 b n (0 : Fin 4) g d) := by
  show V m c main_v1 (((cfg0.win 2).blk t).view.emb (ix5 (0 : Fin 1) r (0 : Fin 1) g d)) = V m c main_v1 (ix5 b n (0 : Fin 4) g d)
  refine congrArg (V m c main_v1) (funext fun a => Fin.ext ?_)
  obtain ⟨-, -, -, -, -, -, -, -, -, -, -, e0, e1, e2, e3, e4, -⟩ := idx_facts t
  match a with
  | ⟨0, _⟩ => show win0_2.index t (0 : Fin 5) * 1 + 1 * (0 : Fin 1).val = b.val; rw [e0, hb]; show _ * 1 + 1 * 0 = _; omega
  | ⟨1, _⟩ => show win0_2.index t (1 : Fin 5) * 128 + 1 * r.val = n.val; rw [e1, hn]; omega
  | ⟨2, _⟩ => show win0_2.index t (2 : Fin 5) * 1 + 1 * (0 : Fin 1).val = (0 : Fin 4).val; rw [e2]; show 0 * 1 + 1 * 0 = 0; omega
  | ⟨3, _⟩ => show win0_2.index t (3 : Fin 5) * 32 + 1 * g.val = g.val; rw [e3]; omega
  | ⟨4, _⟩ => show win0_2.index t (4 : Fin 5) * 128 + 1 * d.val = d.val; rw [e4]; omega

/-- The last-key-row block at point `t`: the last key row of batch `b`. -/
theorem blk3_read (c : Dev nD) (t : Fin cfg0.N) (b : Fin 2) (g : Fin 32) (d : Fin 128) (hb : b.val = t.val / 64) :
    (iblk m c 3 t : Vec Ideal S1x32x128 .f32) (ix3 (0 : Fin 1) g d)
      = (V m c main_v3 : S2x32x128.Idx → EReal) (ix3 b g d) := by
  show V m c main_v3 (((cfg0.win 3).blk t).view.emb (ix3 (0 : Fin 1) g d)) = V m c main_v3 (ix3 b g d)
  refine congrArg (V m c main_v3) (funext fun a => Fin.ext ?_)
  obtain ⟨-, -, -, -, -, -, -, -, -, -, -, -, -, -, -, -, e0, e1, e2, -⟩ := idx_facts t
  match a with
  | ⟨0, _⟩ => show win0_3.index t (0 : Fin 3) * 1 + 1 * (0 : Fin 1).val = b.val; rw [e0, hb]; show _ * 1 + 1 * 0 = _; omega
  | ⟨1, _⟩ => show win0_3.index t (1 : Fin 3) * 32 + 1 * g.val = g.val; rw [e1]; omega
  | ⟨2, _⟩ => show win0_3.index t (2 : Fin 3) * 128 + 1 * d.val = d.val; rw [e2]; omega

/-- The last-value-row block likewise. -/
theorem blk4_read (c : Dev nD) (t : Fin cfg0.N) (b : Fin 2) (g : Fin 32) (d : Fin 128) (hb : b.val = t.val / 64) :
    (iblk m c 4 t : Vec Ideal S1x32x128 .f32) (ix3 (0 : Fin 1) g d)
      = (V m c main_v5 : S2x32x128.Idx → EReal) (ix3 b g d) := by
  show V m c main_v5 (((cfg0.win 4).blk t).view.emb (ix3 (0 : Fin 1) g d)) = V m c main_v5 (ix3 b g d)
  refine congrArg (V m c main_v5) (funext fun a => Fin.ext ?_)
  obtain ⟨-, -, -, -, -, -, -, -, -, -, -, -, -, -, -, -, -, -, -, e0, e1, e2, -⟩ := idx_facts t
  match a with
  | ⟨0, _⟩ => show win0_4.index t (0 : Fin 3) * 1 + 1 * (0 : Fin 1).val = b.val; rw [e0, hb]; show _ * 1 + 1 * 0 = _; omega
  | ⟨1, _⟩ => show win0_4.index t (1 : Fin 3) * 32 + 1 * g.val = g.val; rw [e1]; omega
  | ⟨2, _⟩ => show win0_4.index t (2 : Fin 3) * 128 + 1 * d.val = d.val; rw [e2]; omega

/-- Where the result block's entry (r, h, e) at point `t` sits in the result array. -/
theorem emb5 (t : Fin cfg0.N) (b : Fin 2) (p : Fin 8192) (r : Fin 128) (h : Fin 32) (e : Fin 128)
    (hb : b.val = t.val / 64) (hp : p.val = 128 * (t.val % 64) + r.val) :
    (((cfg0.win 5).blk t).view.emb (ix4 (0 : Fin 1) r h e) : S2x8192x32x128.Idx) = ix4 b p h e := by
  refine funext fun a => Fin.ext ?_
  obtain ⟨-, -, -, -, -, -, -, -, -, -, -, -, -, -, -, -, -, -, -, -, -, -, e0, e1, e2, e3⟩ := idx_facts t
  match a with
  | ⟨0, _⟩ => show win0_5.index t (0 : Fin 4) * 1 + 1 * (0 : Fin 1).val = b.val; rw [e0, hb]; show _ * 1 + 1 * 0 = _; omega
  | ⟨1, _⟩ => show win0_5.index t (1 : Fin 4) * 128 + 1 * r.val = p.val; rw [e1, hp]; omega
  | ⟨2, _⟩ => show win0_5.index t (2 : Fin 4) * 32 + 1 * h.val = h.val; rw [e2]; omega
  | ⟨3, _⟩ => show win0_5.index t (3 : Fin 4) * 128 + 1 * e.val = e.val; rw [e3]; omega

/-- The rows a block row uses are `K` once the strided block's row is `K` in the first sixteen position tiles and
    the shared last row is `K` in the later ones. -/
theorem effRows_eq (i : grid0.Coords) (xA : Vec Ideal S1x128x1x32x128 .f32) (xL : Vec Ideal S1x32x128 .f32) (r : Fin 128)
    (K : Fin 32 → Fin 128 → EReal)
    (hA : (i 1).val < 16 → ∀ g d, xA (ix5 (0 : Fin 1) r (0 : Fin 1) g d) = K g d)
    (hL : ¬(i 1).val < 16 → ∀ g d, xL (ix3 (0 : Fin 1) g d) = K g d) (g : Fin 32) (d : Fin 128) :
    Payload.effRows i xA xL r g d = K g d := by
  unfold Payload.effRows
  show (if (i 1).val < 16 then xA (ix5 (0 : Fin 1) r (0 : Fin 1) g d) else xL (ix3 (0 : Fin 1) g d)) = K g d
  by_cases hc : (i 1).val < 16
  · rw [if_pos hc]; exact hA hc g d
  · rw [if_neg hc]; exact hL hc g d

/-- The key rows that block row `r` of point `t` uses are the key row `keyRow p` of its batch, `p` the row's
    position: below position 2048 the strided block's row is key row 4p, from 2048 on the shared row is the last. -/
theorem keyRows_eq (c : Dev nD) (t : Fin cfg0.N) (b : Fin 2) (p : Fin 8192) (r : Fin 128)
    (hb : b.val = t.val / 64) (hp : p.val = 128 * (t.val % 64) + r.val) (g : Fin 32) (d : Fin 128) :
    Payload.effRows (grid0.coords t) (iblk m c 1 t) (iblk m c 3 t) r g d
      = (m ((c.tc : Thread nD τ).loc main_arg1) : S2x8192x32x128.Idx → EReal) (ix4 b (keyRow p) g d) := by
  obtain ⟨-, c1, -⟩ := idx_facts t
  refine effRows_eq (grid0.coords t) (iblk m c 1 t) (iblk m c 3 t) r
    (fun g d => (m ((c.tc : Thread nD τ).loc main_arg1) : S2x8192x32x128.Idx → EReal) (ix4 b (keyRow p) g d)) ?_ ?_ g d
  · intro hc g d
    have hn : 128 * min (t.val % 64) 15 + r.val < 2048 := by have := r.isLt; omega
    refine (blk1_read m c t b ⟨_, hn⟩ r g d hb rfl).trans ((Arrays.V_v0_apply m c b ⟨_, hn⟩ 0 g d).trans ?_)
    exact congrArg (fun x : Fin 8192 => (m ((c.tc : Thread nD τ).loc main_arg1) : S2x8192x32x128.Idx → EReal) (ix4 b x g d))
      (Fin.ext (by
        rw [keyRow_lt (by have := r.isLt; omega)]
        show 4 * (128 * min (t.val % 64) 15 + r.val) + 0 = 4 * p.val
        omega))
  · intro hc g d
    refine (blk3_read m c t b g d hb).trans ((Arrays.V_v3_apply m c b g d).trans ?_)
    exact congrArg (fun x : Fin 8192 => (m ((c.tc : Thread nD τ).loc main_arg1) : S2x8192x32x128.Idx → EReal) (ix4 b x g d))
      (Fin.ext (by rw [keyRow_ge (by omega)]))

/-- The value rows likewise. -/
theorem valRows_eq (c : Dev nD) (t : Fin cfg0.N) (b : Fin 2) (p : Fin 8192) (r : Fin 128)
    (hb : b.val = t.val / 64) (hp : p.val = 128 * (t.val % 64) + r.val) (g : Fin 32) (d : Fin 128) :
    Payload.effRows (grid0.coords t) (iblk m c 2 t) (iblk m c 4 t) r g d
      = (m ((c.tc : Thread nD τ).loc main_arg2) : S2x8192x32x128.Idx → EReal) (ix4 b (keyRow p) g d) := by
  obtain ⟨-, c1, -⟩ := idx_facts t
  refine effRows_eq (grid0.coords t) (iblk m c 2 t) (iblk m c 4 t) r
    (fun g d => (m ((c.tc : Thread nD τ).loc main_arg2) : S2x8192x32x128.Idx → EReal) (ix4 b (keyRow p) g d)) ?_ ?_ g d
  · intro hc g d
    have hn : 128 * min (t.val % 64) 15 + r.val < 2048 := by have := r.isLt; omega
    refine (blk2_read m c t b ⟨_, hn⟩ r g d hb rfl).trans ((Arrays.V_v1_apply m c b ⟨_, hn⟩ 0 g d).trans ?_)
    exact congrArg (fun x : Fin 8192 => (m ((c.tc : Thread nD τ).loc main_arg2) : S2x8192x32x128.Idx → EReal) (ix4 b x g d))
      (Fin.ext (by
        rw [keyRow_lt (by have := r.isLt; omega)]
        show 4 * (128 * min (t.val % 64) 15 + r.val) + 0 = 4 * p.val
        omega))
  · intro hc g d
    refine (blk4_read m c t b g d hb).trans ((Arrays.V_v5_apply m c b g d).trans ?_)
    exact congrArg (fun x : Fin 8192 => (m ((c.tc : Thread nD τ).loc main_arg2) : S2x8192x32x128.Idx → EReal) (ix4 b x g d))
      (Fin.ext (by rw [keyRow_ge (by omega)]))

/-- An index of the [1,128,32,128] block by its three free coordinates. -/
theorem eq_ix4_block (y : S1x128x32x128.Idx) : ∃ (r : Fin 128) (h : Fin 32) (e : Fin 128), y = ix4 (0 : Fin 1) r h e :=
  ⟨y 1, y 2, y 3, funext fun a => by
    match a with
    | ⟨0, _⟩ => exact Fin.ext (by have h0 : (y 0).val < 1 := (y 0).isLt; show (y 0).val = 0; omega)
    | ⟨1, _⟩ => rfl
    | ⟨2, _⟩ => rfl
    | ⟨3, _⟩ => rfl⟩

/-- WHAT THE BODY LEAVES at point `t`, entry by entry, is `G` of the argument arrays where the entry sits in the
    result array: the entry's row is attention over the heads of the query row at its position `p`, and of the key
    and value rows `keyRow p`. -/
theorem point_eq (c : Dev nD) (t : Fin cfg0.N) (y : S1x128x32x128.Idx) :
    out0_5 (F := Ideal) (grid0.coords t) (iblk m c 0 t) (iblk m c 1 t) (iblk m c 2 t) (iblk m c 3 t) (iblk m c 4 t) y
      = G (m ((c.tc : Thread nD τ).loc main_arg0)) (m ((c.tc : Thread nD τ).loc main_arg1)) (m ((c.tc : Thread nD τ).loc main_arg2))
          (((cfg0.win 5).blk t).view.emb y) := by
  obtain ⟨r, h, e, rfl⟩ := eq_ix4_block y
  have hN : t.val < 128 := lt_of_lt_of_eq t.isLt N_0
  have hb : t.val / 64 < 2 := by omega
  have hp : 128 * (t.val % 64) + r.val < 8192 := by have := r.isLt; omega
  rw [emb5 t ⟨_, hb⟩ ⟨_, hp⟩ r h e rfl rfl, G_ix4]
  refine (Payload.out0_5_apply (grid0.coords t) (iblk m c 0 t) (iblk m c 1 t) (iblk m c 2 t) (iblk m c 3 t) (iblk m c 4 t) r h e).trans ?_
  unfold Gat
  exact attnAt_congr
    (fun i d => (blk0_read m c t ⟨_, hb⟩ ⟨_, hp⟩ r i d rfl rfl).trans (congrFun (V_main_arg0 m c) _))
    (keyRows_eq m c t ⟨_, hb⟩ ⟨_, hp⟩ r rfl rfl)
    (valRows_eq m c t ⟨_, hb⟩ ⟨_, hp⟩ r rfl rfl) h e

/-- WHAT POINT `t` WRITES BACK is block `t` of `G` of the argument arrays. -/
theorem flushed5_eq (c : Dev nD) (t : Fin cfg0.N) :
    (dats m 0 c).flushed 5 t = ((cfg0.win 5).blk t).view.read (Elt Ideal)
      (G (m ((c.tc : Thread nD τ).loc main_arg0)) (m ((c.tc : Thread nD τ).loc main_arg1)) (m ((c.tc : Thread nD τ).loc main_arg2))) := by
  show (cfg0.win 5).cut (grid0.coords t) ((dats m 0 c).after 5 t) = _
  rw [after0_5]
  funext j
  exact point_eq m c t j

/-- An index of the result array is in point `t`'s block iff each coordinate is in the block's range on its axis. -/
theorem mem_blk5 (t : Fin cfg0.N) (i : S2x8192x32x128.Idx) :
    i ∈ ((cfg0.win 5).blk t).view.set ↔ ∀ a : Fin 4, win0_5.index t a * S1x128x32x128.size a ≤ (i a).val
      ∧ (i a).val < win0_5.index t a * S1x128x32x128.size a + S1x128x32x128.size a := by
  show i ∈ ((View.whole main_v6).slice (win0_5.rect t)).set ↔ _
  rw [View.set_slice_whole, Rect.mem_set_unit]
  exact Iff.rfl

/-- Every index of the result array is in some point's block: batch `b`, position `p` is in the block of the point
    with batch `b` and position tile `p / 128`. -/
theorem cover5 (i : S2x8192x32x128.Idx) : ∃ t : Fin cfg0.N, (cfg0.win 5).flush t = true ∧ i ∈ ((cfg0.win 5).blk t).view.set := by
  have h0 : (i 0).val < 2 := (i 0).isLt
  have h1 : (i 1).val < 8192 := (i 1).isLt
  have h2 : (i 2).val < 32 := (i 2).isLt
  have h3 : (i 3).val < 128 := (i 3).isLt
  have hN : cfg0.N = 128 := N_0
  obtain ⟨t, ht⟩ : ∃ t : Fin cfg0.N, t.val = 64 * (i 0).val + (i 1).val / 128 :=
    ⟨⟨64 * (i 0).val + (i 1).val / 128, by rw [hN]; omega⟩, rfl⟩
  refine ⟨t, flush0_5 t, ?_⟩
  rw [mem_blk5]
  obtain ⟨-, -, -, -, -, -, -, -, -, -, -, -, -, -, -, -, -, -, -, -, -, -, e0, e1, e2, e3⟩ := idx_facts t
  intro a
  match a with
  | ⟨0, _⟩ => show win0_5.index t (0 : Fin 4) * 1 ≤ (i 0).val ∧ (i 0).val < win0_5.index t (0 : Fin 4) * 1 + 1; rw [e0, ht]; omega
  | ⟨1, _⟩ => show win0_5.index t (1 : Fin 4) * 128 ≤ (i 1).val ∧ (i 1).val < win0_5.index t (1 : Fin 4) * 128 + 128; rw [e1, ht]; omega
  | ⟨2, _⟩ => show win0_5.index t (2 : Fin 4) * 32 ≤ (i 2).val ∧ (i 2).val < win0_5.index t (2 : Fin 4) * 32 + 32; rw [e2]; omega
  | ⟨3, _⟩ => show win0_5.index t (3 : Fin 4) * 128 ≤ (i 3).val ∧ (i 3).val < win0_5.index t (3 : Fin 4) * 128 + 128; rw [e3]; omega

/-- THE RESULT ARRAY after the run is `G` of the argument arrays: every block written back is `G`'s, and the blocks
    cover the array. -/
theorem final5 (c : Dev nD) : (dats m 0 c).arrAt 5 cfg0.N
    = G (m ((c.tc : Thread nD τ).loc main_arg0)) (m ((c.tc : Thread nD τ).loc main_arg1)) (m ((c.tc : Thread nD τ).loc main_arg2)) :=
  (dats m 0 c).arrAt_eq_of_cover 5
    (G (m ((c.tc : Thread nD τ).loc main_arg0)) (m ((c.tc : Thread nD τ).loc main_arg1)) (m ((c.tc : Thread nD τ).loc main_arg2)))
    (fun t _ => flushed5_eq m c t) cover5

/-- Every weakly fair execution of the idealized kernel's @main terminates with the result array at `G` of the
    argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
          = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.KValue

end
-- ==== Proof.lean ====
/-
  The certificate's claim for the fused dilated-attention kernel against its jnp reference.

  Both programs take q, k, v : [2, 8192, 32, 128]. At the extended reals each returns `G q k v` (Proof/Spec.lean):
  at batch b, position p, head i, feature e, the softmax over the 32 key heads g of the scaled dot products of the
  query row (b, p, i, ·) with the key rows (b, min(4p, 8191), g, ·), applied to the value rows (b, min(4p, 8191), g, e).

  The kernel covers the positions in 64 tiles of 128; in the first sixteen tiles it reads the key and value rows
  4p through a re-laid [2, 2048, 4, 32, 128] view at unit coordinate 0, in the later tiles the one shared row 8191,
  selecting between the two by the tile number (Proof/KernelValue.lean over Proof/KernelPayload.lean and
  Proof/KernelArrays.lean). The reference runs three segment configurations, each overwriting the whole result, so
  only the last survives; it gathers the rows min(4p, 8191) (Proof/RefGather.lean) and computes the same attention
  over the heads (Proof/RefChain.lean, Proof/RefValue.lean). No law of arithmetic beyond the reading of each
  operation at an entry joins the two sides, so the finiteness precondition is never opened.

  The three frames are the frame certificates' (for the two kernels) and the reference's run with its result
  dropped; the idealization rewrote no operation, so `preserves` is trivial.
-/
import proofs.«116964_j51531017617692_2_alg».proof.Defs
import proofs.«116964_j51531017617692_2_alg».proof.Proof.Gen.Kernel
import proofs.«116964_j51531017617692_2_alg».proof.Proof.Gen.KernelIdeal
import proofs.«116964_j51531017617692_2_alg».proof.Proof.Gen.ReferenceIdeal
import proofs.«116964_j51531017617692_2_alg».proof.Proof.Gen.Pre_finite_inputs
import proofs.«116964_j51531017617692_2_alg».proof.Proof.FrameKernel
import proofs.«116964_j51531017617692_2_alg».proof.Proof.FrameKernelIdeal
import proofs.«116964_j51531017617692_2_alg».proof.Proof.RefRun
import proofs.«116964_j51531017617692_2_alg».proof.Proof.RefRead
import proofs.«116964_j51531017617692_2_alg».proof.Proof.RefValue
import proofs.«116964_j51531017617692_2_alg».proof.Proof.KernelValue
import Idealize.ShloMosaic.Adequacy
import Idealize.ShloMosaic.Init

noncomputable section

namespace Cert.Proof

open Idealize.ShloMosaic Idealize.ShloMosaic.TcCoe Idealize.SL.Sem Cert.DilatedAttn

theorem frame_k : Cert.frame_Kernel := fun m ρ _ => Cert.Kernel.GenP.frame m ρ

theorem frame_ki : Cert.frame_KernelIdeal := fun m ρ _ => Cert.KernelIdeal.GenP.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on q, k, v both idealized programs end with the result array at `G q k v`. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v109_eq, Cert.ReferenceIdeal.RefValue.ref_eq_G,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
